-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S512x1024 .f32) (main_arg13 : FVec F S1024x1024 .f32) (main_arg14 : FVec F S1024x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S512x1024 .f32 := Host.absf main_arg12
  let main_cst_22 : FVec F S_ .f32 := constant S_ .f32 0x7F800000#32
  let main_v60 : FVec F S512x1024 .f32 := broadcastInDim S512x1024 ![] bcast_S_S512x1024 main_cst_22
  let main_v61 : IVec S512x1024 1 := cmpf .olt main_v59 main_v60
  let main_c_23 : IVec S_ 1 := constantI S_ 1 1#1
  let main_v62 : IVec S_ 1 := (fun x v => Host.reduce IntOp.andi x v reducesTo_S512x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024x1024 .f32) (main_arg9 : FVec F S512x1024 .f32) (main_arg10 : FVec F S1024x1024 .f32) (main_arg11 : FVec F S1024x1024 .f32) (main_arg12 : FVec F S512x1024 .f32) (main_arg13 : FVec F S1024x1024 .f32) (main_arg14 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024x1024 .f32) (main_arg6 : FVec F S512x1024 .f32) (main_arg7 : FVec F S1024x1024 .f32) (main_arg8 : FVec F S1024x1024 .f32) (main_arg9 : FVec F S512x1024 .f32) (main_arg10 : FVec F S1024x1024 .f32) (main_arg11 : FVec F S1024x1024 .f32) (main_arg12 : FVec F S512x1024 .f32) (main_arg13 : FVec F S1024x1024 .f32) (main_arg14 : FVec F S1024x1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x512 .f32) (main_arg1 : FVec F S4096x2048 .f32) (main_arg2 : FVec F S4096x2048 .f32) (main_arg3 : FVec F S512x1024 .f32) (main_arg4 : FVec F S1024x1024 .f32) (main_arg5 : FVec F S1024x1024 .f32) (main_arg6 : FVec F S512x1024 .f32) (main_arg7 : FVec F S1024x1024 .f32) (main_arg8 : FVec F S1024x1024 .f32) (main_arg9 : FVec F S512x1024 .f32) (main_arg10 : FVec F S1024x1024 .f32) (main_arg11 : FVec F S1024x1024 .f32) (main_arg12 : FVec F S512x1024 .f32) (main_arg13 : FVec F S1024x1024 .f32) (main_arg14 : FVec F S1024x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S4096x1024 : Shape := ⟨2, ![4096, 1024]⟩
abbrev S256x512 : Shape := ⟨2, ![256, 512]⟩
abbrev S256x1024 : Shape := ⟨2, ![256, 1024]⟩
abbrev S256x2048 : Shape := ⟨2, ![256, 2048]⟩

abbrev nBuf : Space → Nat
  | .hbm => 29
  | .vmem => 24
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x2048, .f32⟩
  | .hbm, ⟨3, _⟩ => ⟨S512x1024, .f32⟩
  | .hbm, ⟨4, _⟩ => ⟨S1024x1024, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S512x1024, .f32⟩
  | .hbm, ⟨10, _⟩ => ⟨S1024x1024, .f32⟩
  | .hbm, ⟨11, _⟩ => ⟨S1024x1024, .f32⟩
  | .hbm, ⟨12, _⟩ => ⟨S512x1024, .f32⟩
  | .hbm, ⟨13, _⟩ => ⟨S1024x1024, .f32⟩
  | .hbm, ⟨14, _⟩ => ⟨S1024x1024, .f32⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S4096x1024, .f32⟩
  | .hbm, ⟨28, _⟩ => ⟨S4096x2048, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S256x1024, .f32⟩
  | .local _ .vmem, ⟨21, _⟩ => ⟨S256x1024, .f32⟩
  | .local _ .vmem, ⟨22, _⟩ => ⟨S256x2048, .f32⟩
  | .local _ .vmem, ⟨23, _⟩ => ⟨S256x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x2048_S256x1024_0_0 : ∀ a, (![0, 0] : Fin 2 → Nat) a + S256x1024.size a ≤ S256x2048.size a
  inb_S256x2048_S256x1024_0_1024 : ∀ a, (![0, 1024] : Fin 2 → Nat) a + S256x1024.size a ≤ S256x2048.size a
  dot_S256x512_S512x1024_S256x1024_1_0_0_1_n_n_wf : DotDims.WF S256x512 S512x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x2048.size a
  hwx0_1 : ∀ i : grid0.Coords, EltTy.bits .f32 = 32 ∨ (Rect.block (s := S4096x2048) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x2048.size a
  hwx0_2 : ∀ i : grid0.Coords, EltTy.bits .f32 = 32 ∨ (Rect.block (s := S4096x2048) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x2048.size a
  hwx0_3 : ∀ i : grid0.Coords, EltTy.bits .f32 = 32 ∨ (Rect.block (s := S4096x2048) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .bf16 = 32 ∨ (Rect.block (s := S512x1024) S512x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S512x1024.size a
  hwx0_7 : ∀ i : grid0.Coords, EltTy.bits .bf16 = 32 ∨ (Rect.block (s := S512x1024) S512x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x1024.size a ≤ S1024x1024.size a
  hwx0_14 : ∀ i : grid0.Coords, EltTy.bits .bf16 = 32 ∨ (Rect.block (s := S1024x1024) S1024x1024.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x1024.size a ≤ S1024x1024.size a
  hwx0_15 : ∀ i : grid0.Coords, EltTy.bits .bf16 = 32 ∨ (Rect.block (s := S1024x1024) S1024x1024.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S4096x1024.size a
  hwx0_16 : ∀ i : grid0.Coords, EltTy.bits .f32 = 32 ∨ (Rect.block (s := S4096x1024) S256x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x2048.size a ≤ S4096x2048.size a
  hwx0_17 : ∀ i : grid0.Coords, EltTy.bits .f32 = 32 ∨ (Rect.block (s := S4096x2048) S256x2048.size (cc0_transform_17 i) (hinb0_17 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S1024x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v11) S1024x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v12_0) S256x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v12_1) S256x2048.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S4096x1024 : Shape := ⟨2, ![4096, 1024]⟩
abbrev S512x4096 : Shape := ⟨2, ![512, 4096]⟩
abbrev S1024x4096 : Shape := ⟨2, ![1024, 4096]⟩
abbrev S4096x4096 : Shape := ⟨2, ![4096, 4096]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x2048, .f32⟩
  | .hbm, ⟨3, _⟩ => ⟨S512x1024, .f32⟩
  | .hbm, ⟨4, _⟩ => ⟨S1024x1024, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S512x1024, .f32⟩
  | .hbm, ⟨10, _⟩ => ⟨S1024x1024, .f32⟩
  | .hbm, ⟨11, _⟩ => ⟨S1024x1024, .f32⟩
  | .hbm, ⟨12, _⟩ => ⟨S512x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S512x4096, .f32⟩
  | .hbm, ⟨19, _⟩ => ⟨S1024x4096, .f32⟩
  | .hbm, ⟨20, _⟩ => ⟨S1024x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  slices_S4096x2048_S4096x1024_0_0 : S4096x2048.Slices ![0, 0] S4096x1024
  slices_S4096x2048_S4096x1024_0_1024 : S4096x2048.Slices ![0, 1024] S4096x1024
  concatenates_S512x1024_S512x1024_S512x1024_S512x1024_S512x4096_d1 : Shape.Concatenates [S512x1024, S512x1024, S512x1024, S512x1024] S512x4096 1
  concatenates_S1024x1024_S1024x1024_S1024x1024_S1024x1024_S1024x4096_d1 : Shape.Concatenates [S1024x1024, S1024x1024, S1024x1024, S1024x1024] S1024x4096 1
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  concatenates_S4096x1024_S4096x1024_S4096x2048_d1 : Shape.Concatenates [S4096x1024, S4096x1024] S4096x2048 1
  dot_S4096x512_S512x4096_S4096x4096_1_0_0_1_n_n_wf : DotDims.WF S4096x512 S512x4096 S4096x4096 [1] [0] [0] [1] [] []
  dot_S4096x1024_S1024x4096_S4096x4096_1_0_0_1_n_n_wf : DotDims.WF S4096x1024 S1024x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.K.Entry.lean ====
/-
  The program's arrays when the kernel region is entered, and what each input window's staging buffer holds when
  the body runs at a grid point.

  Before the region the host rounds the twelve weight matrices to bf16, each into a buffer of its own; no argument
  array is written, so the region finds every argument as launched. An input window's block at grid point `t` is the
  rectangle of its array that the window's index map selects there: rows `256·t … 256·t+255` for the four activation
  windows (the second and third both on the array of the previous hidden memory, at column blocks 0 and 1), the whole
  matrix for the twelve weight windows, whose index map is constant. A body that only reads an input window leaves its
  block in place, so the window's current buffer holds the block at every point, whether or not the pipeline fetched
  it there.
-/
import proofs.«147033_j23012434772050_2_alg».proof.Proof.Gen.Kernel.Launch
import proofs.«147033_j23012434772050_2_alg».proof.Proof.Gen.Kernel.Skeleton
import proofs.«147033_j23012434772050_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: the launch contents after the twelve roundings to bf16. -/
abbrev V (c : Dev nD) (b : Ref sig .tc) : Buf (Elt F) ((c : Thread nD τ).loc b) := StableHlo.after hostOps0 (fun b => m (c, b)) b

/-- None of the roundings allocates a buffer. -/
theorem hostOps0_fresh : (hostOps0 : List (HloOp τ sig (Elt F))).Forall fun op => op.fresh = ∅ := by
  simp only [List.Forall]; repeat' constructor

/-- The program up to the region: the roundings, then the region, which finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No rounding writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- No rounding writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- No rounding writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
/-- No rounding writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
/-- No rounding writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
/-- No rounding writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))
/-- No rounding writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    repeat' apply And.intro
    all_goals exact StableHlo.devRef_ne_of_ne (by decide)))
/-- No rounding writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, Finset.mem_singleton]
    repeat' apply And.intro
    all_goals exact StableHlo.devRef_ne_of_ne (by decide)))
/-- No rounding writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, Finset.mem_singleton]
    repeat' apply And.intro
    all_goals exact StableHlo.devRef_ne_of_ne (by decide)))
/-- No rounding writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, Finset.mem_singleton]
    repeat' apply And.intro
    all_goals exact StableHlo.devRef_ne_of_ne (by decide)))
/-- No rounding writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, Finset.mem_singleton]
    repeat' apply And.intro
    all_goals exact StableHlo.devRef_ne_of_ne (by decide)))
/-- No rounding writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, Finset.mem_singleton]
    repeat' apply And.intro
    all_goals exact StableHlo.devRef_ne_of_ne (by decide)))
/-- No rounding writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, Finset.mem_singleton]
    repeat' apply And.intro
    all_goals exact StableHlo.devRef_ne_of_ne (by decide)))
/-- No rounding writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, Finset.mem_singleton]
    repeat' apply And.intro
    all_goals exact StableHlo.devRef_ne_of_ne (by decide)))
/-- No rounding writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, Finset.mem_singleton]
    repeat' apply And.intro
    all_goals exact StableHlo.devRef_ne_of_ne (by decide)))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not, for any proof data whose
    array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not, for any proof data whose
    array is the region-entry one and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not, for any proof data whose
    array is the region-entry one and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not, for any proof data whose
    array is the region-entry one and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not, for any proof data whose
    array is the region-entry one and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not, for any proof data whose
    array is the region-entry one and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not, for any proof data whose
    array is the region-entry one and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not, for any proof data whose
    array is the region-entry one and whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not, for any proof data whose
    array is the region-entry one and whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, fetched there or not, for any proof data whose
    array is the region-entry one and whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, fetched there or not, for any proof data whose
    array is the region-entry one and whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, fetched there or not, for any proof data whose
    array is the region-entry one and whose body leaves the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block at every point, fetched there or not, for any proof data whose
    array is the region-entry one and whose body leaves the block in place. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current buffer holds its block at every point, fetched there or not, for any proof data whose
    array is the region-entry one and whose body leaves the block in place. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current buffer holds its block at every point, fetched there or not, for any proof data whose
    array is the region-entry one and whose body leaves the block in place. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current buffer holds its block at every point, fetched there or not, for any proof data whose
    array is the region-entry one and whose body leaves the block in place. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.K.Body.lean ====
/-
  What one run of the kernel body leaves in the two output windows' buffers, as functions of what the sixteen input
  windows' buffers hold, and the body's triple.

  The body reads every input buffer whole. With `x` the activations' block, `hp`, `cp`, `hc` the blocks of the previous
  hidden state, the previous cell state and the cross hidden state, and `W_g`, `U_g`, `V_g` the weights of gate `g`, it
  forms the four pre-activations `x·W_g + hp·U_g + hc·V_g`, the new cell state
  `c' = σ(f)·cp + σ(i)·tanh(g)` and the new hidden state `h' = σ(o)·tanh(c')`; it stores `h'` over the whole first output
  buffer, `h'` over the left half of the second and `c'` over its right half. The two halves tile the second buffer, so
  after the body each output buffer is determined by the input buffers alone, whatever it held before.
-/
import proofs.«147033_j23012434772050_2_alg».proof.Proof.K.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes through: each a whole buffer, but for the two halves of the
second output buffer -/

abbrev rX : Rect S256x512 := Rect.unit (s := S256x512) ![0, 0] S256x512.size inb_S256x512_S256x512_0_0
abbrev rH : Rect S256x1024 := Rect.unit (s := S256x1024) ![0, 0] S256x1024.size inb_S256x1024_S256x1024_0_0
abbrev rW : Rect S512x1024 := Rect.unit (s := S512x1024) ![0, 0] S512x1024.size inb_S512x1024_S512x1024_0_0
abbrev rU : Rect S1024x1024 := Rect.unit (s := S1024x1024) ![0, 0] S1024x1024.size inb_S1024x1024_S1024x1024_0_0
abbrev rL : Rect S256x2048 := Rect.unit (s := S256x2048) ![0, 0] S256x1024.size inb_S256x2048_S256x1024_0_0
abbrev rR : Rect S256x2048 := Rect.unit (s := S256x2048) ![0, 1024] S256x1024.size inb_S256x2048_S256x1024_0_1024

/-! ## The new states as functions of the input buffers -/

/-- The new cell state `σ(f)·cp + σ(i)·tanh(g)` of the block. -/
def cellOut (x0 : Vec F S256x512 .f32) (x1 : Vec F S256x1024 .f32) (x2 : Vec F S256x1024 .f32) (x3 : Vec F S256x1024 .f32) (x4 : Vec F S512x1024 .bf16) (x5 : Vec F S512x1024 .bf16) (x6 : Vec F S512x1024 .bf16) (x7 : Vec F S512x1024 .bf16) (x8 : Vec F S1024x1024 .bf16) (x9 : Vec F S1024x1024 .bf16) (x10 : Vec F S1024x1024 .bf16) (x11 : Vec F S1024x1024 .bf16) (x12 : Vec F S1024x1024 .bf16) (x13 : Vec F S1024x1024 .bf16) (x14 : Vec F S1024x1024 .bf16) (x15 : Vec F S1024x1024 .bf16) : Vec F S256x1024 .f32 :=
  k0_pay1 (k0_pay3 (View.ld x0 rX)) (k0_pay4 (View.ld x1 rH)) (k0_pay5 (View.ld x3 rH))
    (k0_pay6 (View.ld x0 rX) (View.ld x1 rH) (View.ld x3 rH) (View.ld x4 rW) (View.ld x8 rU) (View.ld x12 rU))
    (k0_pay7 (View.ld x0 rX) (View.ld x1 rH) (View.ld x3 rH) (View.ld x5 rW) (View.ld x9 rU) (View.ld x13 rU))
    (View.ld x7 rW) (View.ld x11 rU) (View.ld x15 rU) (View.ld x2 rH)

/-- The new hidden state `σ(o)·tanh(c')` of the block. -/
def hiddenOut (x0 : Vec F S256x512 .f32) (x1 : Vec F S256x1024 .f32) (x2 : Vec F S256x1024 .f32) (x3 : Vec F S256x1024 .f32) (x4 : Vec F S512x1024 .bf16) (x5 : Vec F S512x1024 .bf16) (x6 : Vec F S512x1024 .bf16) (x7 : Vec F S512x1024 .bf16) (x8 : Vec F S1024x1024 .bf16) (x9 : Vec F S1024x1024 .bf16) (x10 : Vec F S1024x1024 .bf16) (x11 : Vec F S1024x1024 .bf16) (x12 : Vec F S1024x1024 .bf16) (x13 : Vec F S1024x1024 .bf16) (x14 : Vec F S1024x1024 .bf16) (x15 : Vec F S1024x1024 .bf16) : Vec F S256x1024 .f32 :=
  k0_pay2 (k0_pay3 (View.ld x0 rX)) (k0_pay4 (View.ld x1 rH)) (k0_pay5 (View.ld x3 rH))
    (k0_pay6 (View.ld x0 rX) (View.ld x1 rH) (View.ld x3 rH) (View.ld x4 rW) (View.ld x8 rU) (View.ld x12 rU))
    (k0_pay7 (View.ld x0 rX) (View.ld x1 rH) (View.ld x3 rH) (View.ld x5 rW) (View.ld x9 rU) (View.ld x13 rU))
    (k0_pay8 (View.ld x0 rX) (View.ld x6 rW))
    (View.ld x10 rU) (View.ld x14 rU) (View.ld x7 rW) (View.ld x11 rU) (View.ld x15 rU) (View.ld x2 rH)

/-- The first output buffer after the body: the new hidden state stored over all of it. -/
def out16 (x0 : Vec F S256x512 .f32) (x1 : Vec F S256x1024 .f32) (x2 : Vec F S256x1024 .f32) (x3 : Vec F S256x1024 .f32) (x4 : Vec F S512x1024 .bf16) (x5 : Vec F S512x1024 .bf16) (x6 : Vec F S512x1024 .bf16) (x7 : Vec F S512x1024 .bf16) (x8 : Vec F S1024x1024 .bf16) (x9 : Vec F S1024x1024 .bf16) (x10 : Vec F S1024x1024 .bf16) (x11 : Vec F S1024x1024 .bf16) (x12 : Vec F S1024x1024 .bf16) (x13 : Vec F S1024x1024 .bf16) (x14 : Vec F S1024x1024 .bf16) (x15 : Vec F S1024x1024 .bf16) : Vec F S256x1024 .f32 :=
  View.canon [⟨rH, hiddenOut x0 x1 x2 x3 x4 x5 x6 x7 x8 x9 x10 x11 x12 x13 x14 x15⟩]

/-- The second output buffer after the body: the new cell state over its right half, stored last, the new hidden
    state over its left half. -/
def out17 (x0 : Vec F S256x512 .f32) (x1 : Vec F S256x1024 .f32) (x2 : Vec F S256x1024 .f32) (x3 : Vec F S256x1024 .f32) (x4 : Vec F S512x1024 .bf16) (x5 : Vec F S512x1024 .bf16) (x6 : Vec F S512x1024 .bf16) (x7 : Vec F S512x1024 .bf16) (x8 : Vec F S1024x1024 .bf16) (x9 : Vec F S1024x1024 .bf16) (x10 : Vec F S1024x1024 .bf16) (x11 : Vec F S1024x1024 .bf16) (x12 : Vec F S1024x1024 .bf16) (x13 : Vec F S1024x1024 .bf16) (x14 : Vec F S1024x1024 .bf16) (x15 : Vec F S1024x1024 .bf16) : Vec F S256x2048 .f32 :=
  View.canon [⟨rR, cellOut x0 x1 x2 x3 x4 x5 x6 x7 x8 x9 x10 x11 x12 x13 x14 x15⟩, ⟨rL, hiddenOut x0 x1 x2 x3 x4 x5 x6 x7 x8 x9 x10 x11 x12 x13 x14 x15⟩]

/-- The one store covers the first output buffer. -/
theorem cover16 (p0 : Vec F S256x1024 .f32) (y : S256x1024.Idx) :
    ∃ pc ∈ ([⟨rH, p0⟩] : List (View.Piece (Elt F) S256x1024 .f32)), y ∈ pc.1.set :=
  View.cover_of_tiled [⟨rH, p0⟩] S256x1024.size (by rfl) y

/-- The two half stores tile the second output buffer, so they cover it. -/
theorem cover17 (p0 : Vec F S256x1024 .f32) (p1 : Vec F S256x1024 .f32) (y : S256x2048.Idx) :
    ∃ pc ∈ ([⟨rR, p0⟩, ⟨rL, p1⟩] : List (View.Piece (Elt F) S256x2048 .f32)), y ∈ pc.1.set :=
  View.cover_of_tiled [⟨rR, p0⟩, ⟨rL, p1⟩] S256x1024.size (by rfl) y

/-! ## The body's triple -/

set_option maxHeartbeats 4000000 in
/-- The body on whole staging memrefs, the inputs' at contents `x0 … x15` and the outputs' at anything, runs to the
    continuation holding the inputs' as they were and the outputs' at `out16` and `out17` of the inputs'. -/
theorem sound_kernel (c : Dev nD) (E : Set ℕ) (i : grid0.Coords) (arg1 : Memref sig .tc .vmem S256x512 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S256x1024 .f32) (harg17 : arg17.IsWhole) (arg18 : Memref sig .tc .vmem S256x2048 .f32) (harg18 : arg18.IsWhole)
    (x0 : Vec F S256x512 .f32) (x1 : Vec F S256x1024 .f32) (x2 : Vec F S256x1024 .f32) (x3 : Vec F S256x1024 .f32) (x4 : Vec F S512x1024 .bf16) (x5 : Vec F S512x1024 .bf16) (x6 : Vec F S512x1024 .bf16) (x7 : Vec F S512x1024 .bf16) (x8 : Vec F S1024x1024 .bf16) (x9 : Vec F S1024x1024 .bf16) (x10 : Vec F S1024x1024 .bf16) (x11 : Vec F S1024x1024 .bf16) (x12 : Vec F S1024x1024 .bf16) (x13 : Vec F S1024x1024 .bf16) (x14 : Vec F S1024x1024 .bf16) (x15 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out16 x0 x1 x2 x3 x4 x5 x6 x7 x8 x9 x10 x11 x12 x13 x14 x15) ∗ owns (c : Thread nD τ) arg18 fullShare (out17 x0 x1 x2 x3 x4 x5 x6 x7 x8 x9 x10 x11 x12 x13 x14 x15)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    try dsimp only
    exact View.read_writes_eq_canon _ _ _ (cover16 _)
  iexists _; isplitr
  swap; · iexact H17
  ipureintro
  try dsimp only
  exact View.read_writes_eq_canon _ _ _ (cover17 _ _)

end Cert.Kernel.Hand

end
-- ==== Proof.K.Data.lean ====
/-
  The pipeline's proof data and the body obligation at a generic grid point.

  After the body at point `t` every input window's buffer still holds its block, and the two output windows' buffers
  hold the new hidden state, and the new hidden and cell states side by side, of the blocks at `t`. The second and the
  third window both read the array of the previous hidden memory, so each holds that array at one half of the full
  share; every other input array is held whole. The kernel has no scratch buffer, no semaphore of its own and owes no
  signal, so the invariant carried from point to point is the core's idle scoped buffers and nothing else.
-/
import proofs.«147033_j23012434772050_2_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 18, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨1, _⟩ => fullShare.left
    | ⟨2, _⟩ => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after17 (c : Dev nD) (t : Fin cfg0.N) : (dats m 0 c).after 17 t = out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 2000000 in
/-- The body at any point: the inputs' buffers hold their blocks, so the body's triple applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/-
  The run of the whole program: every execution terminates, faults nowhere, leaves each array of the pipeline at what
  the write-backs of the proof data make of it, and every other unscoped buffer as the region found it.

  Two input windows read one array, the previous hidden memory: the buffer behind it, held whole when the region is
  entered, is dealt to them in two halves of the full share, which is all either needs to have its blocks fetched. Every
  other array belongs to one window and is held whole. Nothing else is needed of the launch: the kernel keeps no scratch,
  names no semaphore and draws no random numbers.
-/
import proofs.«147033_j23012434772050_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share_0 (c : Dev nD) : (dats m 0 c).share 0 = fullShare := rfl
theorem share_1 (c : Dev nD) : (dats m 0 c).share 1 = fullShare.left := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem share_10 (c : Dev nD) : (dats m 0 c).share 10 = fullShare := rfl
theorem share_11 (c : Dev nD) : (dats m 0 c).share 11 = fullShare := rfl
theorem share_12 (c : Dev nD) : (dats m 0 c).share 12 = fullShare := rfl
theorem share_13 (c : Dev nD) : (dats m 0 c).share 13 = fullShare := rfl
theorem share_14 (c : Dev nD) : (dats m 0 c).share 14 = fullShare := rfl
theorem share_15 (c : Dev nD) : (dats m 0 c).share 15 = fullShare := rfl
theorem share_16 (c : Dev nD) : (dats m 0 c).share 16 = fullShare := rfl
theorem share_17 (c : Dev nD) : (dats m 0 c).share 17 = fullShare := rfl

/-- The distinct buffers behind the windows' arrays, one by one. -/
theorem arrBufs0_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_v0) ↦{fullShare} V m c main_v0) ∗ (((c.tc : Thread nD τ).loc main_v1) ↦{fullShare} V m c main_v1) ∗ (((c.tc : Thread nD τ).loc main_v2) ↦{fullShare} V m c main_v2) ∗ (((c.tc : Thread nD τ).loc main_v3) ↦{fullShare} V m c main_v3) ∗ (((c.tc : Thread nD τ).loc main_v4) ↦{fullShare} V m c main_v4) ∗ (((c.tc : Thread nD τ).loc main_v5) ↦{fullShare} V m c main_v5) ∗ (((c.tc : Thread nD τ).loc main_v6) ↦{fullShare} V m c main_v6) ∗ (((c.tc : Thread nD τ).loc main_v7) ↦{fullShare} V m c main_v7) ∗ (((c.tc : Thread nD τ).loc main_v8) ↦{fullShare} V m c main_v8) ∗ (((c.tc : Thread nD τ).loc main_v9) ↦{fullShare} V m c main_v9) ∗ (((c.tc : Thread nD τ).loc main_v10) ↦{fullShare} V m c main_v10) ∗ (((c.tc : Thread nD τ).loc main_v11) ↦{fullShare} V m c main_v11) ∗ (((c.tc : Thread nD τ).loc main_v12_0) ↦{fullShare} V m c main_v12_0) ∗ (((c.tc : Thread nD τ).loc main_v12_1) ↦{fullShare} V m c main_v12_1)) := by
  unfold Pipeline.arrBufs
  exact bigSep_eq_bigSepL_of_eq [main_arg0, main_arg1, main_arg2, main_v0, main_v1, main_v2, main_v3, main_v4, main_v5, main_v6, main_v7, main_v8, main_v9, main_v10, main_v11, main_v12_0, main_v12_1] (by decide) (by decide) _

/-- The windows' arrays at their shares, one by one. -/
theorem arrays0_eq (c : Dev nD) :
    ((dats m 0 c).arrays (fun w => (dats m 0 c).arrAt w 0) : sProp 𝕄)
      = iprop((((c.tc : Thread nD τ).loc main_arg0) ↦{fullShare} V m c main_arg0) ∗ (((c.tc : Thread nD τ).loc main_arg1) ↦{fullShare.left} V m c main_arg1) ∗ (((c.tc : Thread nD τ).loc main_arg1) ↦{fullShare.right} V m c main_arg1) ∗ (((c.tc : Thread nD τ).loc main_arg2) ↦{fullShare} V m c main_arg2) ∗ (((c.tc : Thread nD τ).loc main_v0) ↦{fullShare} V m c main_v0) ∗ (((c.tc : Thread nD τ).loc main_v1) ↦{fullShare} V m c main_v1) ∗ (((c.tc : Thread nD τ).loc main_v2) ↦{fullShare} V m c main_v2) ∗ (((c.tc : Thread nD τ).loc main_v3) ↦{fullShare} V m c main_v3) ∗ (((c.tc : Thread nD τ).loc main_v4) ↦{fullShare} V m c main_v4) ∗ (((c.tc : Thread nD τ).loc main_v5) ↦{fullShare} V m c main_v5) ∗ (((c.tc : Thread nD τ).loc main_v6) ↦{fullShare} V m c main_v6) ∗ (((c.tc : Thread nD τ).loc main_v7) ↦{fullShare} V m c main_v7) ∗ (((c.tc : Thread nD τ).loc main_v8) ↦{fullShare} V m c main_v8) ∗ (((c.tc : Thread nD τ).loc main_v9) ↦{fullShare} V m c main_v9) ∗ (((c.tc : Thread nD τ).loc main_v10) ↦{fullShare} V m c main_v10) ∗ (((c.tc : Thread nD τ).loc main_v11) ↦{fullShare} V m c main_v11) ∗ (((c.tc : Thread nD τ).loc main_v12_0) ↦{fullShare} V m c main_v12_0) ∗ (((c.tc : Thread nD τ).loc main_v12_1) ↦{fullShare} V m c main_v12_1)) := by
  unfold Pipeline.Dat.arrays
  rw [bigSep_W0]
  simp only [share_0, share_1, share_2, share_3, share_4, share_5, share_6, share_7, share_8, share_9, share_10, share_11, share_12, share_13, share_14, share_15, share_16, share_17, View.set_whole]
  rfl

/-- The seventeen buffers behind the eighteen windows' arrays, each whole at its entry contents, are the windows'
    arrays at their shares: the previous hidden memory split in two halves, every other buffer as it is. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  have e1 : ((((c.tc : Thread nD τ).loc main_arg1) ↦{fullShare} V m c main_arg1) : sProp 𝕄)
      = iprop((((c.tc : Thread nD τ).loc main_arg1) ↦{fullShare.left} V m c main_arg1) ∗ (((c.tc : Thread nD τ).loc main_arg1) ↦{fullShare.right} V m c main_arg1)) :=
    BI.Entails.antisymm (pointsTo_share (PosShare.mem_left_op_right fullShare)).1 (pointsTo_share (PosShare.mem_left_op_right fullShare)).2
  rw [arrBufs0_eq, arrays0_eq, e1]
  iintro ⟨A0, ⟨A1l, A1r⟩, A2, W0, W1, W2, W3, W4, W5, W6, W7, W8, W9, W10, W11, O0, O1⟩
  isplitl [A0]; · iexact A0
  isplitl [A1l]; · iexact A1l
  isplitl [A1r]; · iexact A1r
  isplitl [A2]; · iexact A2
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [O0]; · iexact O0
  iexact O1

set_option backward.isDefEq.respectTransparency.types false in
/-- From any memory with zero counters every execution of the program terminates without a fault; at the end every
    array of the pipeline holds its entry contents overwritten by the blocks written back, and every other unscoped
    buffer what the region found. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      · iexact H)
    (hin := fun c => (show iprop(emp ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c from by
      iintro ⟨-, H⟩
      iexact H))
    (hout := fun c => (show Pipeline.scopedRest (Ix := Unit) (Name := ℕ) (U := UR sig nD τ) (Lvl := ℕ) (Val := Elt F) spec0 c
        ⊢ iprop(emp ∗ Pipeline.scopedRest (Ix := Unit) (Name := ℕ) (U := UR sig nD τ) (Lvl := ℕ) (Val := Elt F) spec0 c) from by
      iintro H
      isplitr
      · iempintro
      · iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- In a final state of the run the fifteen argument arrays are as launched: three are input windows' arrays, never
    written back; twelve are read by the host's roundings only and bypass the region. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩

/-- The program runs and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept m r h c) (run_main m ρ)

end Cert.Kernel.Hand

end
-- ==== Proof.KI.Entry.lean ====
/-
  The program's arrays when the kernel region is entered, and what each input window's staging buffer holds when
  the body runs at a grid point.

  Before the region the host rounds the twelve weight matrices to bf16, each into a buffer of its own; no argument
  array is written, so the region finds every argument as launched. An input window's block at grid point `t` is the
  rectangle of its array that the window's index map selects there: rows `256·t … 256·t+255` for the four activation
  windows (the second and third both on the array of the previous hidden memory, at column blocks 0 and 1), the whole
  matrix for the twelve weight windows, whose index map is constant. A body that only reads an input window leaves its
  block in place, so the window's current buffer holds the block at every point, whether or not the pipeline fetched
  it there.
-/
import proofs.«147033_j23012434772050_2_alg».proof.Proof.Gen.KernelIdeal.Launch
import proofs.«147033_j23012434772050_2_alg».proof.Proof.Gen.KernelIdeal.Skeleton
import proofs.«147033_j23012434772050_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: the launch contents after the twelve roundings to bf16. -/
abbrev V (c : Dev nD) (b : Ref sig .tc) : Buf (Elt F) ((c : Thread nD τ).loc b) := StableHlo.after hostOps0 (fun b => m (c, b)) b

/-- None of the roundings allocates a buffer. -/
theorem hostOps0_fresh : (hostOps0 : List (HloOp τ sig (Elt F))).Forall fun op => op.fresh = ∅ := by
  simp only [List.Forall]; repeat' constructor

/-- The program up to the region: the roundings, then the region, which finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No rounding writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- No rounding writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- No rounding writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
/-- No rounding writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
/-- No rounding writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
/-- No rounding writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))
/-- No rounding writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    repeat' apply And.intro
    all_goals exact StableHlo.devRef_ne_of_ne (by decide)))
/-- No rounding writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, Finset.mem_singleton]
    repeat' apply And.intro
    all_goals exact StableHlo.devRef_ne_of_ne (by decide)))
/-- No rounding writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, Finset.mem_singleton]
    repeat' apply And.intro
    all_goals exact StableHlo.devRef_ne_of_ne (by decide)))
/-- No rounding writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, Finset.mem_singleton]
    repeat' apply And.intro
    all_goals exact StableHlo.devRef_ne_of_ne (by decide)))
/-- No rounding writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, Finset.mem_singleton]
    repeat' apply And.intro
    all_goals exact StableHlo.devRef_ne_of_ne (by decide)))
/-- No rounding writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, Finset.mem_singleton]
    repeat' apply And.intro
    all_goals exact StableHlo.devRef_ne_of_ne (by decide)))
/-- No rounding writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, Finset.mem_singleton]
    repeat' apply And.intro
    all_goals exact StableHlo.devRef_ne_of_ne (by decide)))
/-- No rounding writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, Finset.mem_singleton]
    repeat' apply And.intro
    all_goals exact StableHlo.devRef_ne_of_ne (by decide)))
/-- No rounding writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, Finset.mem_singleton]
    repeat' apply And.intro
    all_goals exact StableHlo.devRef_ne_of_ne (by decide)))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not, for any proof data whose
    array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not, for any proof data whose
    array is the region-entry one and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not, for any proof data whose
    array is the region-entry one and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not, for any proof data whose
    array is the region-entry one and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not, for any proof data whose
    array is the region-entry one and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not, for any proof data whose
    array is the region-entry one and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not, for any proof data whose
    array is the region-entry one and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not, for any proof data whose
    array is the region-entry one and whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not, for any proof data whose
    array is the region-entry one and whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, fetched there or not, for any proof data whose
    array is the region-entry one and whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, fetched there or not, for any proof data whose
    array is the region-entry one and whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, fetched there or not, for any proof data whose
    array is the region-entry one and whose body leaves the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block at every point, fetched there or not, for any proof data whose
    array is the region-entry one and whose body leaves the block in place. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current buffer holds its block at every point, fetched there or not, for any proof data whose
    array is the region-entry one and whose body leaves the block in place. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current buffer holds its block at every point, fetched there or not, for any proof data whose
    array is the region-entry one and whose body leaves the block in place. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current buffer holds its block at every point, fetched there or not, for any proof data whose
    array is the region-entry one and whose body leaves the block in place. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KI.Body.lean ====
/-
  What one run of the kernel body leaves in the two output windows' buffers, as functions of what the sixteen input
  windows' buffers hold, and the body's triple.

  The body reads every input buffer whole. With `x` the activations' block, `hp`, `cp`, `hc` the blocks of the previous
  hidden state, the previous cell state and the cross hidden state, and `W_g`, `U_g`, `V_g` the weights of gate `g`, it
  forms the four pre-activations `x·W_g + hp·U_g + hc·V_g`, the new cell state
  `c' = σ(f)·cp + σ(i)·tanh(g)` and the new hidden state `h' = σ(o)·tanh(c')`; it stores `h'` over the whole first output
  buffer, `h'` over the left half of the second and `c'` over its right half. The two halves tile the second buffer, so
  after the body each output buffer is determined by the input buffers alone, whatever it held before.
-/
import proofs.«147033_j23012434772050_2_alg».proof.Proof.KI.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes through: each a whole buffer, but for the two halves of the
second output buffer -/

abbrev rX : Rect S256x512 := Rect.unit (s := S256x512) ![0, 0] S256x512.size inb_S256x512_S256x512_0_0
abbrev rH : Rect S256x1024 := Rect.unit (s := S256x1024) ![0, 0] S256x1024.size inb_S256x1024_S256x1024_0_0
abbrev rW : Rect S512x1024 := Rect.unit (s := S512x1024) ![0, 0] S512x1024.size inb_S512x1024_S512x1024_0_0
abbrev rU : Rect S1024x1024 := Rect.unit (s := S1024x1024) ![0, 0] S1024x1024.size inb_S1024x1024_S1024x1024_0_0
abbrev rL : Rect S256x2048 := Rect.unit (s := S256x2048) ![0, 0] S256x1024.size inb_S256x2048_S256x1024_0_0
abbrev rR : Rect S256x2048 := Rect.unit (s := S256x2048) ![0, 1024] S256x1024.size inb_S256x2048_S256x1024_0_1024

/-! ## The new states as functions of the input buffers -/

/-- The new cell state `σ(f)·cp + σ(i)·tanh(g)` of the block. -/
def cellOut (x0 : Vec F S256x512 .f32) (x1 : Vec F S256x1024 .f32) (x2 : Vec F S256x1024 .f32) (x3 : Vec F S256x1024 .f32) (x4 : Vec F S512x1024 .bf16) (x5 : Vec F S512x1024 .bf16) (x6 : Vec F S512x1024 .bf16) (x7 : Vec F S512x1024 .bf16) (x8 : Vec F S1024x1024 .bf16) (x9 : Vec F S1024x1024 .bf16) (x10 : Vec F S1024x1024 .bf16) (x11 : Vec F S1024x1024 .bf16) (x12 : Vec F S1024x1024 .bf16) (x13 : Vec F S1024x1024 .bf16) (x14 : Vec F S1024x1024 .bf16) (x15 : Vec F S1024x1024 .bf16) : Vec F S256x1024 .f32 :=
  k0_pay1 (k0_pay3 (View.ld x0 rX)) (k0_pay4 (View.ld x1 rH)) (k0_pay5 (View.ld x3 rH))
    (k0_pay6 (View.ld x0 rX) (View.ld x1 rH) (View.ld x3 rH) (View.ld x4 rW) (View.ld x8 rU) (View.ld x12 rU))
    (k0_pay7 (View.ld x0 rX) (View.ld x1 rH) (View.ld x3 rH) (View.ld x5 rW) (View.ld x9 rU) (View.ld x13 rU))
    (View.ld x7 rW) (View.ld x11 rU) (View.ld x15 rU) (View.ld x2 rH)

/-- The new hidden state `σ(o)·tanh(c')` of the block. -/
def hiddenOut (x0 : Vec F S256x512 .f32) (x1 : Vec F S256x1024 .f32) (x2 : Vec F S256x1024 .f32) (x3 : Vec F S256x1024 .f32) (x4 : Vec F S512x1024 .bf16) (x5 : Vec F S512x1024 .bf16) (x6 : Vec F S512x1024 .bf16) (x7 : Vec F S512x1024 .bf16) (x8 : Vec F S1024x1024 .bf16) (x9 : Vec F S1024x1024 .bf16) (x10 : Vec F S1024x1024 .bf16) (x11 : Vec F S1024x1024 .bf16) (x12 : Vec F S1024x1024 .bf16) (x13 : Vec F S1024x1024 .bf16) (x14 : Vec F S1024x1024 .bf16) (x15 : Vec F S1024x1024 .bf16) : Vec F S256x1024 .f32 :=
  k0_pay2 (k0_pay3 (View.ld x0 rX)) (k0_pay4 (View.ld x1 rH)) (k0_pay5 (View.ld x3 rH))
    (k0_pay6 (View.ld x0 rX) (View.ld x1 rH) (View.ld x3 rH) (View.ld x4 rW) (View.ld x8 rU) (View.ld x12 rU))
    (k0_pay7 (View.ld x0 rX) (View.ld x1 rH) (View.ld x3 rH) (View.ld x5 rW) (View.ld x9 rU) (View.ld x13 rU))
    (k0_pay8 (View.ld x0 rX) (View.ld x6 rW))
    (View.ld x10 rU) (View.ld x14 rU) (View.ld x7 rW) (View.ld x11 rU) (View.ld x15 rU) (View.ld x2 rH)

/-- The first output buffer after the body: the new hidden state stored over all of it. -/
def out16 (x0 : Vec F S256x512 .f32) (x1 : Vec F S256x1024 .f32) (x2 : Vec F S256x1024 .f32) (x3 : Vec F S256x1024 .f32) (x4 : Vec F S512x1024 .bf16) (x5 : Vec F S512x1024 .bf16) (x6 : Vec F S512x1024 .bf16) (x7 : Vec F S512x1024 .bf16) (x8 : Vec F S1024x1024 .bf16) (x9 : Vec F S1024x1024 .bf16) (x10 : Vec F S1024x1024 .bf16) (x11 : Vec F S1024x1024 .bf16) (x12 : Vec F S1024x1024 .bf16) (x13 : Vec F S1024x1024 .bf16) (x14 : Vec F S1024x1024 .bf16) (x15 : Vec F S1024x1024 .bf16) : Vec F S256x1024 .f32 :=
  View.canon [⟨rH, hiddenOut x0 x1 x2 x3 x4 x5 x6 x7 x8 x9 x10 x11 x12 x13 x14 x15⟩]

/-- The second output buffer after the body: the new cell state over its right half, stored last, the new hidden
    state over its left half. -/
def out17 (x0 : Vec F S256x512 .f32) (x1 : Vec F S256x1024 .f32) (x2 : Vec F S256x1024 .f32) (x3 : Vec F S256x1024 .f32) (x4 : Vec F S512x1024 .bf16) (x5 : Vec F S512x1024 .bf16) (x6 : Vec F S512x1024 .bf16) (x7 : Vec F S512x1024 .bf16) (x8 : Vec F S1024x1024 .bf16) (x9 : Vec F S1024x1024 .bf16) (x10 : Vec F S1024x1024 .bf16) (x11 : Vec F S1024x1024 .bf16) (x12 : Vec F S1024x1024 .bf16) (x13 : Vec F S1024x1024 .bf16) (x14 : Vec F S1024x1024 .bf16) (x15 : Vec F S1024x1024 .bf16) : Vec F S256x2048 .f32 :=
  View.canon [⟨rR, cellOut x0 x1 x2 x3 x4 x5 x6 x7 x8 x9 x10 x11 x12 x13 x14 x15⟩, ⟨rL, hiddenOut x0 x1 x2 x3 x4 x5 x6 x7 x8 x9 x10 x11 x12 x13 x14 x15⟩]

/-- The one store covers the first output buffer. -/
theorem cover16 (p0 : Vec F S256x1024 .f32) (y : S256x1024.Idx) :
    ∃ pc ∈ ([⟨rH, p0⟩] : List (View.Piece (Elt F) S256x1024 .f32)), y ∈ pc.1.set :=
  View.cover_of_tiled [⟨rH, p0⟩] S256x1024.size (by rfl) y

/-- The two half stores tile the second output buffer, so they cover it. -/
theorem cover17 (p0 : Vec F S256x1024 .f32) (p1 : Vec F S256x1024 .f32) (y : S256x2048.Idx) :
    ∃ pc ∈ ([⟨rR, p0⟩, ⟨rL, p1⟩] : List (View.Piece (Elt F) S256x2048 .f32)), y ∈ pc.1.set :=
  View.cover_of_tiled [⟨rR, p0⟩, ⟨rL, p1⟩] S256x1024.size (by rfl) y

/-! ## The body's triple -/

set_option maxHeartbeats 4000000 in
/-- The body on whole staging memrefs, the inputs' at contents `x0 … x15` and the outputs' at anything, runs to the
    continuation holding the inputs' as they were and the outputs' at `out16` and `out17` of the inputs'. -/
theorem sound_kernel (c : Dev nD) (E : Set ℕ) (i : grid0.Coords) (arg1 : Memref sig .tc .vmem S256x512 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S256x1024 .f32) (harg17 : arg17.IsWhole) (arg18 : Memref sig .tc .vmem S256x2048 .f32) (harg18 : arg18.IsWhole)
    (x0 : Vec F S256x512 .f32) (x1 : Vec F S256x1024 .f32) (x2 : Vec F S256x1024 .f32) (x3 : Vec F S256x1024 .f32) (x4 : Vec F S512x1024 .bf16) (x5 : Vec F S512x1024 .bf16) (x6 : Vec F S512x1024 .bf16) (x7 : Vec F S512x1024 .bf16) (x8 : Vec F S1024x1024 .bf16) (x9 : Vec F S1024x1024 .bf16) (x10 : Vec F S1024x1024 .bf16) (x11 : Vec F S1024x1024 .bf16) (x12 : Vec F S1024x1024 .bf16) (x13 : Vec F S1024x1024 .bf16) (x14 : Vec F S1024x1024 .bf16) (x15 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out16 x0 x1 x2 x3 x4 x5 x6 x7 x8 x9 x10 x11 x12 x13 x14 x15) ∗ owns (c : Thread nD τ) arg18 fullShare (out17 x0 x1 x2 x3 x4 x5 x6 x7 x8 x9 x10 x11 x12 x13 x14 x15)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    try dsimp only
    exact View.read_writes_eq_canon _ _ _ (cover16 _)
  iexists _; isplitr
  swap; · iexact H17
  ipureintro
  try dsimp only
  exact View.read_writes_eq_canon _ _ _ (cover17 _ _)

end Cert.KernelIdeal.Hand

end
-- ==== Proof.Spec.lean ====
/-
  The cell's mathematics on whole arrays over the extended reals.

  With `x` the activations, `hm1` the previous hidden memory (hidden state in its left 1024 columns, cell state in its
  right 1024) and `hm2` the cross memory (its left 1024 columns the cross hidden state), the pre-activation of a gate
  with weights `W`, `U`, `V` at row `b` and column `j` is

      ∑ₖ x[b,k]·W[k,j] + ∑ₖ hm1[b,k]·U[k,j] + ∑ₖ hm2[b,k]·V[k,j],

  the new cell state is `σ(f)·hm1[b,1024+j] + σ(i)·tanh(g)` and the new hidden state `σ(o)·tanh(c')`, with
  `σ(z) = 1/(1+e^(-z))`. The first result is the new hidden state; the second holds the new hidden state in its left
  1024 columns and the new cell state in its right 1024.
-/
import Idealize.ShloMosaic.Lib.ValueIdx
import Idealize.ShloMosaic.PureOps.Ideal

noncomputable section

open scoped BigOperators

namespace Cert.LstmSpec

open Idealize.ShloMosaic Idealize.ShloMosaic.ValueIdx

/-- A matrix of extended reals. -/
abbrev Mat (r c : Nat) : Type := (⟨2, ![r, c]⟩ : Shape).Idx → EReal

/-- Column `j` of the left half of a 2048-wide row. -/
abbrev lo (j : Fin 1024) : Fin 2048 := ⟨j.val, by have := j.isLt; omega⟩
/-- Column `j` of the right half of a 2048-wide row. -/
abbrev hi (j : Fin 1024) : Fin 2048 := ⟨1024 + j.val, by have := j.isLt; omega⟩

/-- A gate's pre-activation at row `b`, column `j`. -/
def gate (x : Mat 4096 512) (hm1 hm2 : Mat 4096 2048) (W : Mat 512 1024) (U Vv : Mat 1024 1024) (b : Fin 4096) (j : Fin 1024) : EReal :=
  (∑ k : Fin 512, x (ix2 b k) * W (ix2 k j)) + (∑ k : Fin 1024, hm1 (ix2 b (lo k)) * U (ix2 k j))
    + ∑ k : Fin 1024, hm2 (ix2 b (lo k)) * Vv (ix2 k j)

/-- The new cell state. -/
def cell (x : Mat 4096 512) (hm1 hm2 : Mat 4096 2048) (Wi : Mat 512 1024) (Ui Vi : Mat 1024 1024) (Wf : Mat 512 1024) (Uf Vf : Mat 1024 1024)
    (Wc : Mat 512 1024) (Uc Vc : Mat 1024 1024) (b : Fin 4096) (j : Fin 1024) : EReal :=
  Ideal.logistic (gate x hm1 hm2 Wf Uf Vf b j) * hm1 (ix2 b (hi j))
    + Ideal.logistic (gate x hm1 hm2 Wi Ui Vi b j) * Ideal.tanh (gate x hm1 hm2 Wc Uc Vc b j)

/-- The new hidden state. -/
def hidden (x : Mat 4096 512) (hm1 hm2 : Mat 4096 2048) (Wi : Mat 512 1024) (Ui Vi : Mat 1024 1024) (Wf : Mat 512 1024) (Uf Vf : Mat 1024 1024)
    (Wo : Mat 512 1024) (Uo Vo : Mat 1024 1024) (Wc : Mat 512 1024) (Uc Vc : Mat 1024 1024) (b : Fin 4096) (j : Fin 1024) : EReal :=
  Ideal.logistic (gate x hm1 hm2 Wo Uo Vo b j) * Ideal.tanh (cell x hm1 hm2 Wi Ui Vi Wf Uf Vf Wc Uc Vc b j)

/-- The first result: the new hidden state. -/
def outH (x : Mat 4096 512) (hm1 hm2 : Mat 4096 2048) (Wi : Mat 512 1024) (Ui Vi : Mat 1024 1024) (Wf : Mat 512 1024) (Uf Vf : Mat 1024 1024)
    (Wo : Mat 512 1024) (Uo Vo : Mat 1024 1024) (Wc : Mat 512 1024) (Uc Vc : Mat 1024 1024) : Mat 4096 1024 :=
  fun i => hidden x hm1 hm2 Wi Ui Vi Wf Uf Vf Wo Uo Vo Wc Uc Vc (i 0) (i 1)

/-- The second result: new hidden state and new cell state side by side. -/
def outS (x : Mat 4096 512) (hm1 hm2 : Mat 4096 2048) (Wi : Mat 512 1024) (Ui Vi : Mat 1024 1024) (Wf : Mat 512 1024) (Uf Vf : Mat 1024 1024)
    (Wo : Mat 512 1024) (Uo Vo : Mat 1024 1024) (Wc : Mat 512 1024) (Uc Vc : Mat 1024 1024) : Mat 4096 2048 :=
  fun i => if h : (i 1).val < 1024 then hidden x hm1 hm2 Wi Ui Vi Wf Uf Vf Wo Uo Vo Wc Uc Vc (i 0) ⟨(i 1).val, h⟩
    else cell x hm1 hm2 Wi Ui Vi Wf Uf Vf Wc Uc Vc (i 0) ⟨(i 1).val - 1024, by have h2 : (i 1).val < 2048 := (i 1).isLt; omega⟩

/-- The f32 word of one denotes one. -/
theorem one_word : Ideal.ofBits .f32 0x3F800000#32 = 1 := by
  simp [Ideal.ofBits, Ideal.ieee, -EReal.coe_mul]; norm_num

end Cert.LstmSpec

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.KI.Block.lean ====
/-
  What the kernel leaves in its two result arrays, at the extended reals: the cell's mathematics of the argument arrays.

  One run of the body on the blocks at grid point `t` computes, for row `p` of the block and column `q`, the three
  contraction sums of each gate over the block's rows of the activations and of the two hidden states against the
  whole weight matrices, and from them the new cell and hidden states. Row `p` of the block at point `t` is row
  `256·t + p` of the array; the previous hidden state is the left half of the rows of the previous hidden memory, the
  previous cell state its right half; the rounding of the weights to bf16 is the identity on the extended reals. So
  what point `t` writes back is block `t` of one function of the argument arrays, and the sixteen blocks of each
  result cover it.
-/
import proofs.«147033_j23012434772050_2_alg».proof.Proof.KI.Body
import proofs.«147033_j23012434772050_2_alg».proof.Proof.Spec
import proofs.«147033_j23012434772050_2_alg».proof.Proof.LibPlainDot
import Idealize.ShloMosaic.Lib.Pipeline.Value
import Idealize.ShloMosaic.Lib.StableHlo.Run

set_option maxRecDepth 16384

noncomputable section

open scoped BigOperators

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.LstmSpec

/-! ## The body's arithmetic at an index of the block -/

/-- A gate's pre-activation on blocks: row `p` of the three activation blocks against column `q` of the weights. -/
def gateB (xb : Vec Ideal S256x512 .f32) (hb cb : Vec Ideal S256x1024 .f32) (W : Vec Ideal S512x1024 .bf16) (U Vv : Vec Ideal S1024x1024 .bf16)
    (p : Fin 256) (q : Fin 1024) : EReal :=
  (∑ k : Fin 512, xb (ix2 p k) * W (ix2 k q)) + (∑ k : Fin 1024, hb (ix2 p k) * U (ix2 k q)) + ∑ k : Fin 1024, cb (ix2 p k) * Vv (ix2 k q)

/-- A 256×512 by 512×1024 product into the zero accumulator, at an index. -/
theorem mmW (a : FVec Ideal S256x512 .bf16) (b : FVec Ideal S512x1024 .bf16) (p : Fin 256) (q : Fin 1024) :
    matmul dot_S256x512_S512x1024_S256x1024_1_0_0_1_n_n none a b (constant S256x1024 .f32 0x00000000#32) (ix2 p q)
      = ∑ k : Fin 512, a (ix2 p k) * b (ix2 k q) :=
  PlainDot.matmul_zero_apply 256 512 1024 none a b p q

/-- A 256×1024 by 1024×1024 product into the zero accumulator, at an index. -/
theorem mmU (a : FVec Ideal S256x1024 .bf16) (b : FVec Ideal S1024x1024 .bf16) (p : Fin 256) (q : Fin 1024) :
    matmul dot_S256x1024_S1024x1024_S256x1024_1_0_0_1_n_n none a b (constant S256x1024 .f32 0x00000000#32) (ix2 p q)
      = ∑ k : Fin 1024, a (ix2 p k) * b (ix2 k q) :=
  PlainDot.matmul_zero_apply 256 1024 1024 none a b p q

/-- The input gate's pre-activation. -/
theorem pay6_apply (v0 : Vec Ideal S256x512 .f32) (v2 v4 : Vec Ideal S256x1024 .f32) (v6 : Vec Ideal S512x1024 .bf16) (v9 v13 : Vec Ideal S1024x1024 .bf16)
    (p : Fin 256) (q : Fin 1024) : k0_pay6 (F := Ideal) v0 v2 v4 v6 v9 v13 (ix2 p q) = gateB v0 v2 v4 v6 v9 v13 p q := by
  unfold k0_pay6 k0_pay3 k0_pay4 k0_pay5 gateB
  simp only [shapeCast_self]
  exact congrArg₂ (· + ·) (congrArg₂ (· + ·) (mmW v0 v6 p q) (mmU v2 v9 p q)) (mmU v4 v13 p q)

/-- The forget gate's pre-activation. -/
theorem pay7_apply (v0 : Vec Ideal S256x512 .f32) (v2 v4 : Vec Ideal S256x1024 .f32) (v17 : Vec Ideal S512x1024 .bf16) (v20 v24 : Vec Ideal S1024x1024 .bf16)
    (p : Fin 256) (q : Fin 1024) : k0_pay7 (F := Ideal) v0 v2 v4 v17 v20 v24 (ix2 p q) = gateB v0 v2 v4 v17 v20 v24 p q := by
  unfold k0_pay7 k0_pay3 k0_pay4 k0_pay5 gateB
  simp only [shapeCast_self]
  exact congrArg₂ (· + ·) (congrArg₂ (· + ·) (mmW v0 v17 p q) (mmU v2 v20 p q)) (mmU v4 v24 p q)

/-- The new cell state on blocks. -/
def cellB (xb : Vec Ideal S256x512 .f32) (hb cp cb : Vec Ideal S256x1024 .f32) (Wi : Vec Ideal S512x1024 .bf16) (Ui Vi : Vec Ideal S1024x1024 .bf16)
    (Wf : Vec Ideal S512x1024 .bf16) (Uf Vf : Vec Ideal S1024x1024 .bf16) (Wc : Vec Ideal S512x1024 .bf16) (Uc Vc : Vec Ideal S1024x1024 .bf16)
    (p : Fin 256) (q : Fin 1024) : EReal :=
  Ideal.logistic (gateB xb hb cb Wf Uf Vf p q) * cp (ix2 p q)
    + Ideal.logistic (gateB xb hb cb Wi Ui Vi p q) * Ideal.tanh (gateB xb hb cb Wc Uc Vc p q)

/-- The new hidden state on blocks. -/
def hiddenB (xb : Vec Ideal S256x512 .f32) (hb cp cb : Vec Ideal S256x1024 .f32) (Wi : Vec Ideal S512x1024 .bf16) (Ui Vi : Vec Ideal S1024x1024 .bf16)
    (Wf : Vec Ideal S512x1024 .bf16) (Uf Vf : Vec Ideal S1024x1024 .bf16) (Wo : Vec Ideal S512x1024 .bf16) (Uo Vo : Vec Ideal S1024x1024 .bf16)
    (Wc : Vec Ideal S512x1024 .bf16) (Uc Vc : Vec Ideal S1024x1024 .bf16) (p : Fin 256) (q : Fin 1024) : EReal :=
  Ideal.logistic (gateB xb hb cb Wo Uo Vo p q) * Ideal.tanh (cellB xb hb cp cb Wi Ui Vi Wf Uf Vf Wc Uc Vc p q)

theorem hz : (![0, 0] : Fin 2 → Nat) = fun _ => 0 := funext fun a => by fin_cases a <;> rfl

/-- The body's new cell state at an index of the block. -/
theorem cellOut_apply (x0 : Vec Ideal S256x512 .f32) (x1 : Vec Ideal S256x1024 .f32) (x2 : Vec Ideal S256x1024 .f32) (x3 : Vec Ideal S256x1024 .f32) (x4 : Vec Ideal S512x1024 .bf16) (x5 : Vec Ideal S512x1024 .bf16) (x6 : Vec Ideal S512x1024 .bf16) (x7 : Vec Ideal S512x1024 .bf16) (x8 : Vec Ideal S1024x1024 .bf16) (x9 : Vec Ideal S1024x1024 .bf16) (x10 : Vec Ideal S1024x1024 .bf16) (x11 : Vec Ideal S1024x1024 .bf16) (x12 : Vec Ideal S1024x1024 .bf16) (x13 : Vec Ideal S1024x1024 .bf16) (x14 : Vec Ideal S1024x1024 .bf16) (x15 : Vec Ideal S1024x1024 .bf16) (p : Fin 256) (q : Fin 1024) :
    cellOut (F := Ideal) x0 x1 x2 x3 x4 x5 x6 x7 x8 x9 x10 x11 x12 x13 x14 x15 (ix2 p q) = cellB x0 x1 x2 x3 x4 x8 x12 x5 x9 x13 x7 x11 x15 p q := by
  unfold cellOut
  simp only [View.ld_unit_zero (S := S256x512) hz, View.ld_unit_zero (S := S256x1024) hz, View.ld_unit_zero (S := S512x1024) hz, View.ld_unit_zero (S := S1024x1024) hz]
  unfold k0_pay1 cellB
  simp only [shapeCast_self]
  show Ideal.logistic (k0_pay7 (F := Ideal) x0 x1 x3 x5 x9 x13 (ix2 p q)) * x2 (ix2 p q)
      + Ideal.logistic (k0_pay6 (F := Ideal) x0 x1 x3 x4 x8 x12 (ix2 p q))
        * Ideal.tanh ((matmul dot_S256x512_S512x1024_S256x1024_1_0_0_1_n_n none (k0_pay3 (F := Ideal) x0) x7 (constant S256x1024 .f32 0x00000000#32) (ix2 p q)
            + matmul dot_S256x1024_S1024x1024_S256x1024_1_0_0_1_n_n none (k0_pay4 (F := Ideal) x1) x11 (constant S256x1024 .f32 0x00000000#32) (ix2 p q))
            + matmul dot_S256x1024_S1024x1024_S256x1024_1_0_0_1_n_n none (k0_pay5 (F := Ideal) x3) x15 (constant S256x1024 .f32 0x00000000#32) (ix2 p q)) = _
  rw [pay7_apply, pay6_apply]
  unfold gateB
  exact congrArg (fun z => _ + _ * Ideal.tanh z)
    (congrArg₂ (· + ·) (congrArg₂ (· + ·) (mmW x0 x7 p q) (mmU x1 x11 p q)) (mmU x3 x15 p q))

/-- The body's new hidden state at an index of the block. -/
theorem hiddenOut_apply (x0 : Vec Ideal S256x512 .f32) (x1 : Vec Ideal S256x1024 .f32) (x2 : Vec Ideal S256x1024 .f32) (x3 : Vec Ideal S256x1024 .f32) (x4 : Vec Ideal S512x1024 .bf16) (x5 : Vec Ideal S512x1024 .bf16) (x6 : Vec Ideal S512x1024 .bf16) (x7 : Vec Ideal S512x1024 .bf16) (x8 : Vec Ideal S1024x1024 .bf16) (x9 : Vec Ideal S1024x1024 .bf16) (x10 : Vec Ideal S1024x1024 .bf16) (x11 : Vec Ideal S1024x1024 .bf16) (x12 : Vec Ideal S1024x1024 .bf16) (x13 : Vec Ideal S1024x1024 .bf16) (x14 : Vec Ideal S1024x1024 .bf16) (x15 : Vec Ideal S1024x1024 .bf16) (p : Fin 256) (q : Fin 1024) :
    hiddenOut (F := Ideal) x0 x1 x2 x3 x4 x5 x6 x7 x8 x9 x10 x11 x12 x13 x14 x15 (ix2 p q) = hiddenB x0 x1 x2 x3 x4 x8 x12 x5 x9 x13 x6 x10 x14 x7 x11 x15 p q := by
  have hc := cellOut_apply x0 x1 x2 x3 x4 x5 x6 x7 x8 x9 x10 x11 x12 x13 x14 x15 p q
  unfold cellOut at hc
  unfold hiddenOut
  simp only [View.ld_unit_zero (S := S256x512) hz, View.ld_unit_zero (S := S256x1024) hz, View.ld_unit_zero (S := S512x1024) hz, View.ld_unit_zero (S := S1024x1024) hz] at hc ⊢
  unfold k0_pay2 k0_pay8 hiddenB
  simp only [shapeCast_self]
  show Ideal.logistic ((matmul dot_S256x512_S512x1024_S256x1024_1_0_0_1_n_n none (k0_pay3 (F := Ideal) x0) x6 (constant S256x1024 .f32 0x00000000#32) (ix2 p q)
            + matmul dot_S256x1024_S1024x1024_S256x1024_1_0_0_1_n_n none (k0_pay4 (F := Ideal) x1) x10 (constant S256x1024 .f32 0x00000000#32) (ix2 p q))
            + matmul dot_S256x1024_S1024x1024_S256x1024_1_0_0_1_n_n none (k0_pay5 (F := Ideal) x3) x14 (constant S256x1024 .f32 0x00000000#32) (ix2 p q))
      * Ideal.tanh (k0_pay1 (F := Ideal) (k0_pay3 x0) (k0_pay4 x1) (k0_pay5 x3) (k0_pay6 x0 x1 x3 x4 x8 x12) (k0_pay7 x0 x1 x3 x5 x9 x13) x7 x11 x15 x2 (ix2 p q)) = _
  rw [hc]
  unfold gateB
  exact congrArg (fun z => Ideal.logistic z * _)
    (congrArg₂ (· + ·) (congrArg₂ (· + ·) (mmW x0 x6 p q) (mmU x1 x10 p q)) (mmU x3 x14 p q))

end Cert.KernelIdeal.Hand

end
-- ==== Proof.KI.Arrays.lean ====
/-
  What the kernel leaves in its two result arrays, at the extended reals: the cell's mathematics of the argument arrays.

  Row `p` of an activation block at grid point `t` is row `256·t + p` of its array; the previous hidden state is the left
  half of the rows of the previous hidden memory, the previous cell state its right half, the cross hidden state the left
  half of the cross memory; a weight window's block is the whole rounded matrix, and rounding to bf16 is the identity on
  the extended reals. So what point `t` writes back into either result is block `t` of one function of the argument
  arrays, and the sixteen row blocks cover each result.
-/
import proofs.«147033_j23012434772050_2_alg».proof.Proof.KI.Block

set_option maxRecDepth 16384

noncomputable section

open scoped BigOperators

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.LstmSpec

variable (m : (ℓ : Loc nD τ sig) → Buf (Elt Ideal) ℓ) (ρ : Dev nD → PrngReg)

/-! ## The rounded weights are the weights -/

theorem V_main_v0 (c : Dev nD) : (V m c main_v0 : S512x1024.Idx → EReal) = m ((c : Thread nD τ).loc main_arg3) := by
  dsimp only [V, hostOps0]; after_results; rfl
theorem V_main_v1 (c : Dev nD) : (V m c main_v1 : S512x1024.Idx → EReal) = m ((c : Thread nD τ).loc main_arg6) := by
  dsimp only [V, hostOps0]; after_results; rfl
theorem V_main_v2 (c : Dev nD) : (V m c main_v2 : S512x1024.Idx → EReal) = m ((c : Thread nD τ).loc main_arg9) := by
  dsimp only [V, hostOps0]; after_results; rfl
theorem V_main_v3 (c : Dev nD) : (V m c main_v3 : S512x1024.Idx → EReal) = m ((c : Thread nD τ).loc main_arg12) := by
  dsimp only [V, hostOps0]; after_results; rfl
theorem V_main_v4 (c : Dev nD) : (V m c main_v4 : S1024x1024.Idx → EReal) = m ((c : Thread nD τ).loc main_arg4) := by
  dsimp only [V, hostOps0]; after_results; rfl
theorem V_main_v5 (c : Dev nD) : (V m c main_v5 : S1024x1024.Idx → EReal) = m ((c : Thread nD τ).loc main_arg7) := by
  dsimp only [V, hostOps0]; after_results; rfl
theorem V_main_v6 (c : Dev nD) : (V m c main_v6 : S1024x1024.Idx → EReal) = m ((c : Thread nD τ).loc main_arg10) := by
  dsimp only [V, hostOps0]; after_results; rfl
theorem V_main_v7 (c : Dev nD) : (V m c main_v7 : S1024x1024.Idx → EReal) = m ((c : Thread nD τ).loc main_arg13) := by
  dsimp only [V, hostOps0]; after_results; rfl
theorem V_main_v8 (c : Dev nD) : (V m c main_v8 : S1024x1024.Idx → EReal) = m ((c : Thread nD τ).loc main_arg5) := by
  dsimp only [V, hostOps0]; after_results; rfl
theorem V_main_v9 (c : Dev nD) : (V m c main_v9 : S1024x1024.Idx → EReal) = m ((c : Thread nD τ).loc main_arg8) := by
  dsimp only [V, hostOps0]; after_results; rfl
theorem V_main_v10 (c : Dev nD) : (V m c main_v10 : S1024x1024.Idx → EReal) = m ((c : Thread nD τ).loc main_arg11) := by
  dsimp only [V, hostOps0]; after_results; rfl
theorem V_main_v11 (c : Dev nD) : (V m c main_v11 : S1024x1024.Idx → EReal) = m ((c : Thread nD τ).loc main_arg14) := by
  dsimp only [V, hostOps0]; after_results; rfl

/-! ## The index maps over the grid -/

/-- The activation windows and the result windows move down one row block per point, the cell-state window in column
    block 1; the weight windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 1
    ∧ win0_3.index t (0 : Fin 2) = t.val ∧ win0_3.index t (1 : Fin 2) = 0
    ∧ win0_16.index t (0 : Fin 2) = t.val ∧ win0_16.index t (1 : Fin 2) = 0
    ∧ win0_17.index t (0 : Fin 2) = t.val ∧ win0_17.index t (1 : Fin 2) = 0 :=
  (by decide +kernel : ∀ t : Fin grid0.N, _)

theorem idx_weights : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

/-- Row `p` of the block at point `t`, as a row of the array. -/
def row (t : Fin cfg0.N) (p : Fin 256) : Fin 4096 := ⟨256 * t.val + p.val, by have h := t.isLt; have hN : cfg0.N = 16 := N_0; have := p.isLt; omega⟩

/-! ## The input blocks, read off the argument arrays -/

theorem blk0_apply (c : Dev nD) (t : Fin cfg0.N) (p : Fin 256) (k : Fin 512) :
    iblk m c 0 t (ix2 p k) = m ((c : Thread nD τ).loc main_arg0) (ix2 (row t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 512 + 1 * k.val = k.val; omega

theorem blk1_apply (c : Dev nD) (t : Fin cfg0.N) (p : Fin 256) (k : Fin 1024) :
    iblk m c 1 t (ix2 p k) = m ((c : Thread nD τ).loc main_arg1) (ix2 (row t p) (lo k)) := by
  obtain ⟨-, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega

theorem blk2_apply (c : Dev nD) (t : Fin cfg0.N) (p : Fin 256) (k : Fin 1024) :
    iblk m c 2 t (ix2 p k) = m ((c : Thread nD τ).loc main_arg1) (ix2 (row t p) (hi k)) := by
  obtain ⟨-, -, -, -, e0, e1, -⟩ := idx_facts t
  show V m c main_arg1 (((cfg0.win 2).blk t).view.emb (ix2 p k)) = _
  rw [V_main_arg1]
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * k.val = 1024 + k.val; omega

theorem blk3_apply (c : Dev nD) (t : Fin cfg0.N) (p : Fin 256) (k : Fin 1024) :
    iblk m c 3 t (ix2 p k) = m ((c : Thread nD τ).loc main_arg2) (ix2 (row t p) (lo k)) := by
  obtain ⟨-, -, -, -, -, -, e0, e1, -⟩ := idx_facts t
  show V m c main_arg2 (((cfg0.win 3).blk t).view.emb (ix2 p k)) = _
  rw [V_main_arg2]
  refine congrArg _ (funext fun a => Fin.ext ?_)
  match a with
  | ⟨0, _⟩ => show win0_3.index t (0 : Fin 2) * 256 + 1 * p.val = 256 * t.val + p.val; omega
  | ⟨1, _⟩ => show win0_3.index t (1 : Fin 2) * 1024 + 1 * k.val = k.val; omega

theorem blk4_apply (c : Dev nD) (t : Fin cfg0.N) (k : Fin 512) (q : Fin 1024) :
    iblk m c 4 t (ix2 k q) = m ((c : Thread nD τ).loc main_arg3) (ix2 k q) := by
  obtain ⟨e0, e1, -⟩ := idx_weights t
  show V m c main_v0 (((cfg0.win 4).blk t).view.emb (ix2 k q)) = _
  rw [V_main_v0]
  refine congrArg _ (funext fun a => Fin.ext ?_)
  match a with
  | ⟨0, _⟩ => show win0_4.index t (0 : Fin 2) * 512 + 1 * k.val = k.val; omega
  | ⟨1, _⟩ => show win0_4.index t (1 : Fin 2) * 1024 + 1 * q.val = q.val; omega

theorem blk5_apply (c : Dev nD) (t : Fin cfg0.N) (k : Fin 512) (q : Fin 1024) :
    iblk m c 5 t (ix2 k q) = m ((c : Thread nD τ).loc main_arg6) (ix2 k q) := by
  obtain ⟨-, -, e0, e1, -⟩ := idx_weights t
  show V m c main_v1 (((cfg0.win 5).blk t).view.emb (ix2 k q)) = _
  rw [V_main_v1]
  refine congrArg _ (funext fun a => Fin.ext ?_)
  match a with
  | ⟨0, _⟩ => show win0_5.index t (0 : Fin 2) * 512 + 1 * k.val = k.val; omega
  | ⟨1, _⟩ => show win0_5.index t (1 : Fin 2) * 1024 + 1 * q.val = q.val; omega

theorem blk6_apply (c : Dev nD) (t : Fin cfg0.N) (k : Fin 512) (q : Fin 1024) :
    iblk m c 6 t (ix2 k q) = m ((c : Thread nD τ).loc main_arg9) (ix2 k q) := by
  obtain ⟨-, -, -, -, e0, e1, -⟩ := idx_weights t
  show V m c main_v2 (((cfg0.win 6).blk t).view.emb (ix2 k q)) = _
  rw [V_main_v2]
  refine congrArg _ (funext fun a => Fin.ext ?_)
  match a with
  | ⟨0, _⟩ => show win0_6.index t (0 : Fin 2) * 512 + 1 * k.val = k.val; omega
  | ⟨1, _⟩ => show win0_6.index t (1 : Fin 2) * 1024 + 1 * q.val = q.val; omega

theorem blk7_apply (c : Dev nD) (t : Fin cfg0.N) (k : Fin 512) (q : Fin 1024) :
    iblk m c 7 t (ix2 k q) = m ((c : Thread nD τ).loc main_arg12) (ix2 k q) := by
  obtain ⟨-, -, -, -, -, -, e0, e1, -⟩ := idx_weights t
  show V m c main_v3 (((cfg0.win 7).blk t).view.emb (ix2 k q)) = _
  rw [V_main_v3]
  refine congrArg _ (funext fun a => Fin.ext ?_)
  match a with
  | ⟨0, _⟩ => show win0_7.index t (0 : Fin 2) * 512 + 1 * k.val = k.val; omega
  | ⟨1, _⟩ => show win0_7.index t (1 : Fin 2) * 1024 + 1 * q.val = q.val; omega

theorem blk8_apply (c : Dev nD) (t : Fin cfg0.N) (k : Fin 1024) (q : Fin 1024) :
    iblk m c 8 t (ix2 k q) = m ((c : Thread nD τ).loc main_arg4) (ix2 k q) := by
  obtain ⟨-, -, -, -, -, -, -, -, e0, e1, -⟩ := idx_weights t
  show V m c main_v4 (((cfg0.win 8).blk t).view.emb (ix2 k q)) = _
  rw [V_main_v4]
  refine congrArg _ (funext fun a => Fin.ext ?_)
  match a with
  | ⟨0, _⟩ => show win0_8.index t (0 : Fin 2) * 1024 + 1 * k.val = k.val; omega
  | ⟨1, _⟩ => show win0_8.index t (1 : Fin 2) * 1024 + 1 * q.val = q.val; omega

theorem blk9_apply (c : Dev nD) (t : Fin cfg0.N) (k : Fin 1024) (q : Fin 1024) :
    iblk m c 9 t (ix2 k q) = m ((c : Thread nD τ).loc main_arg7) (ix2 k q) := by
  obtain ⟨-, -, -, -, -, -, -, -, -, -, e0, e1, -⟩ := idx_weights t
  show V m c main_v5 (((cfg0.win 9).blk t).view.emb (ix2 k q)) = _
  rw [V_main_v5]
  refine congrArg _ (funext fun a => Fin.ext ?_)
  match a with
  | ⟨0, _⟩ => show win0_9.index t (0 : Fin 2) * 1024 + 1 * k.val = k.val; omega
  | ⟨1, _⟩ => show win0_9.index t (1 : Fin 2) * 1024 + 1 * q.val = q.val; omega

theorem blk10_apply (c : Dev nD) (t : Fin cfg0.N) (k : Fin 1024) (q : Fin 1024) :
    iblk m c 10 t (ix2 k q) = m ((c : Thread nD τ).loc main_arg10) (ix2 k q) := by
  obtain ⟨-, -, -, -, -, -, -, -, -, -, -, -, e0, e1, -⟩ := idx_weights t
  show V m c main_v6 (((cfg0.win 10).blk t).view.emb (ix2 k q)) = _
  rw [V_main_v6]
  refine congrArg _ (funext fun a => Fin.ext ?_)
  match a with
  | ⟨0, _⟩ => show win0_10.index t (0 : Fin 2) * 1024 + 1 * k.val = k.val; omega
  | ⟨1, _⟩ => show win0_10.index t (1 : Fin 2) * 1024 + 1 * q.val = q.val; omega

theorem blk11_apply (c : Dev nD) (t : Fin cfg0.N) (k : Fin 1024) (q : Fin 1024) :
    iblk m c 11 t (ix2 k q) = m ((c : Thread nD τ).loc main_arg13) (ix2 k q) := by
  obtain ⟨-, -, -, -, -, -, -, -, -, -, -, -, -, -, e0, e1, -⟩ := idx_weights t
  show V m c main_v7 (((cfg0.win 11).blk t).view.emb (ix2 k q)) = _
  rw [V_main_v7]
  refine congrArg _ (funext fun a => Fin.ext ?_)
  match a with
  | ⟨0, _⟩ => show win0_11.index t (0 : Fin 2) * 1024 + 1 * k.val = k.val; omega
  | ⟨1, _⟩ => show win0_11.index t (1 : Fin 2) * 1024 + 1 * q.val = q.val; omega

theorem blk12_apply (c : Dev nD) (t : Fin cfg0.N) (k : Fin 1024) (q : Fin 1024) :
    iblk m c 12 t (ix2 k q) = m ((c : Thread nD τ).loc main_arg5) (ix2 k q) := by
  obtain ⟨-, -, -, -, -, -, -, -, -, -, -, -, -, -, -, -, e0, e1, -⟩ := idx_weights t
  show V m c main_v8 (((cfg0.win 12).blk t).view.emb (ix2 k q)) = _
  rw [V_main_v8]
  refine congrArg _ (funext fun a => Fin.ext ?_)
  match a with
  | ⟨0, _⟩ => show win0_12.index t (0 : Fin 2) * 1024 + 1 * k.val = k.val; omega
  | ⟨1, _⟩ => show win0_12.index t (1 : Fin 2) * 1024 + 1 * q.val = q.val; omega

theorem blk13_apply (c : Dev nD) (t : Fin cfg0.N) (k : Fin 1024) (q : Fin 1024) :
    iblk m c 13 t (ix2 k q) = m ((c : Thread nD τ).loc main_arg8) (ix2 k q) := by
  obtain ⟨-, -, -, -, -, -, -, -, -, -, -, -, -, -, -, -, -, -, e0, e1, -⟩ := idx_weights t
  show V m c main_v9 (((cfg0.win 13).blk t).view.emb (ix2 k q)) = _
  rw [V_main_v9]
  refine congrArg _ (funext fun a => Fin.ext ?_)
  match a with
  | ⟨0, _⟩ => show win0_13.index t (0 : Fin 2) * 1024 + 1 * k.val = k.val; omega
  | ⟨1, _⟩ => show win0_13.index t (1 : Fin 2) * 1024 + 1 * q.val = q.val; omega

theorem blk14_apply (c : Dev nD) (t : Fin cfg0.N) (k : Fin 1024) (q : Fin 1024) :
    iblk m c 14 t (ix2 k q) = m ((c : Thread nD τ).loc main_arg11) (ix2 k q) := by
  obtain ⟨-, -, -, -, -, -, -, -, -, -, -, -, -, -, -, -, -, -, -, -, e0, e1, -⟩ := idx_weights t
  show V m c main_v10 (((cfg0.win 14).blk t).view.emb (ix2 k q)) = _
  rw [V_main_v10]
  refine congrArg _ (funext fun a => Fin.ext ?_)
  match a with
  | ⟨0, _⟩ => show win0_14.index t (0 : Fin 2) * 1024 + 1 * k.val = k.val; omega
  | ⟨1, _⟩ => show win0_14.index t (1 : Fin 2) * 1024 + 1 * q.val = q.val; omega

theorem blk15_apply (c : Dev nD) (t : Fin cfg0.N) (k : Fin 1024) (q : Fin 1024) :
    iblk m c 15 t (ix2 k q) = m ((c : Thread nD τ).loc main_arg14) (ix2 k q) := by
  obtain ⟨-, -, -, -, -, -, -, -, -, -, -, -, -, -, -, -, -, -, -, -, -, -, e0, e1⟩ := idx_weights t
  show V m c main_v11 (((cfg0.win 15).blk t).view.emb (ix2 k q)) = _
  rw [V_main_v11]
  refine congrArg _ (funext fun a => Fin.ext ?_)
  match a with
  | ⟨0, _⟩ => show win0_15.index t (0 : Fin 2) * 1024 + 1 * k.val = k.val; omega
  | ⟨1, _⟩ => show win0_15.index t (1 : Fin 2) * 1024 + 1 * q.val = q.val; omega

/-! ## From the blocks to the arrays -/

/-- A gate's pre-activation on the blocks at point `t` is its pre-activation on the arrays at the block's row. -/
theorem gateB_blocks (c : Dev nD) (t : Fin cfg0.N) (W : S512x1024.Idx → EReal) (U Vv : S1024x1024.Idx → EReal)
    (xW : Vec Ideal S512x1024 .bf16) (xU xV : Vec Ideal S1024x1024 .bf16)
    (hW : ∀ k q, xW (ix2 k q) = W (ix2 k q)) (hU : ∀ k q, xU (ix2 k q) = U (ix2 k q)) (hV : ∀ k q, xV (ix2 k q) = Vv (ix2 k q))
    (p : Fin 256) (q : Fin 1024) :
    gateB (iblk m c 0 t) (iblk m c 1 t) (iblk m c 3 t) xW xU xV p q
      = gate (m ((c : Thread nD τ).loc main_arg0)) (m ((c : Thread nD τ).loc main_arg1)) (m ((c : Thread nD τ).loc main_arg2)) W U Vv (row t p) q := by
  unfold gateB gate
  refine congrArg₂ (· + ·) (congrArg₂ (· + ·) (Finset.sum_congr rfl fun k _ => ?_) (Finset.sum_congr rfl fun k _ => ?_)) (Finset.sum_congr rfl fun k _ => ?_)
  · rw [blk0_apply, hW]
  · rw [blk1_apply, hU]
  · rw [blk3_apply, hV]

/-- The new cell state of the blocks at point `t` is the new cell state of the arrays at the block's row. -/
theorem cellOut_blocks (c : Dev nD) (t : Fin cfg0.N) (p : Fin 256) (q : Fin 1024) :
    cellOut (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p q)
      = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (row t p) q := by
  rw [cellOut_apply]
  unfold cellB cell
  rw [gateB_blocks m c t (m ((c : Thread nD τ).loc main_arg6)) (m ((c : Thread nD τ).loc main_arg7)) (m ((c : Thread nD τ).loc main_arg8)) _ _ _ (blk5_apply m c t) (blk9_apply m c t) (blk13_apply m c t),
    gateB_blocks m c t (m ((c : Thread nD τ).loc main_arg3)) (m ((c : Thread nD τ).loc main_arg4)) (m ((c : Thread nD τ).loc main_arg5)) _ _ _ (blk4_apply m c t) (blk8_apply m c t) (blk12_apply m c t),
    gateB_blocks m c t (m ((c : Thread nD τ).loc main_arg12)) (m ((c : Thread nD τ).loc main_arg13)) (m ((c : Thread nD τ).loc main_arg14)) _ _ _ (blk7_apply m c t) (blk11_apply m c t) (blk15_apply m c t),
    blk2_apply]

/-- The new hidden state of the blocks at point `t` is the new hidden state of the arrays at the block's row. -/
theorem hiddenOut_blocks (c : Dev nD) (t : Fin cfg0.N) (p : Fin 256) (q : Fin 1024) :
    hiddenOut (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p q)
      = Cert.LstmSpec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (row t p) q := by
  have hc := cellOut_blocks m c t p q
  rw [cellOut_apply] at hc
  rw [hiddenOut_apply]
  unfold hiddenB Cert.LstmSpec.hidden
  rw [hc, gateB_blocks m c t (m ((c : Thread nD τ).loc main_arg9)) (m ((c : Thread nD τ).loc main_arg10)) (m ((c : Thread nD τ).loc main_arg11)) _ _ _ (blk6_apply m c t) (blk10_apply m c t) (blk14_apply m c t)]

end Cert.KernelIdeal.Hand

end
-- ==== Proof.KI.Data.lean ====
/-
  The pipeline's proof data and the body obligation at a generic grid point.

  After the body at point `t` every input window's buffer still holds its block, and the two output windows' buffers
  hold the new hidden state, and the new hidden and cell states side by side, of the blocks at `t`. The second and the
  third window both read the array of the previous hidden memory, so each holds that array at one half of the full
  share; every other input array is held whole. The kernel has no scratch buffer, no semaphore of its own and owes no
  signal, so the invariant carried from point to point is the core's idle scoped buffers and nothing else.
-/
import proofs.«147033_j23012434772050_2_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 18, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨1, _⟩ => fullShare.left
    | ⟨2, _⟩ => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after17 (c : Dev nD) (t : Fin cfg0.N) : (dats m 0 c).after 17 t = out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 2000000 in
/-- The body at any point: the inputs' buffers hold their blocks, so the body's triple applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The run of the whole program: every execution terminates, faults nowhere, leaves each array of the pipeline at what
  the write-backs of the proof data make of it, and every other unscoped buffer as the region found it.

  Two input windows read one array, the previous hidden memory: the buffer behind it, held whole when the region is
  entered, is dealt to them in two halves of the full share, which is all either needs to have its blocks fetched. Every
  other array belongs to one window and is held whole. Nothing else is needed of the launch: the kernel keeps no scratch,
  names no semaphore and draws no random numbers.
-/
import proofs.«147033_j23012434772050_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share_0 (c : Dev nD) : (dats m 0 c).share 0 = fullShare := rfl
theorem share_1 (c : Dev nD) : (dats m 0 c).share 1 = fullShare.left := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem share_10 (c : Dev nD) : (dats m 0 c).share 10 = fullShare := rfl
theorem share_11 (c : Dev nD) : (dats m 0 c).share 11 = fullShare := rfl
theorem share_12 (c : Dev nD) : (dats m 0 c).share 12 = fullShare := rfl
theorem share_13 (c : Dev nD) : (dats m 0 c).share 13 = fullShare := rfl
theorem share_14 (c : Dev nD) : (dats m 0 c).share 14 = fullShare := rfl
theorem share_15 (c : Dev nD) : (dats m 0 c).share 15 = fullShare := rfl
theorem share_16 (c : Dev nD) : (dats m 0 c).share 16 = fullShare := rfl
theorem share_17 (c : Dev nD) : (dats m 0 c).share 17 = fullShare := rfl

/-- The distinct buffers behind the windows' arrays, one by one. -/
theorem arrBufs0_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_v0) ↦{fullShare} V m c main_v0) ∗ (((c.tc : Thread nD τ).loc main_v1) ↦{fullShare} V m c main_v1) ∗ (((c.tc : Thread nD τ).loc main_v2) ↦{fullShare} V m c main_v2) ∗ (((c.tc : Thread nD τ).loc main_v3) ↦{fullShare} V m c main_v3) ∗ (((c.tc : Thread nD τ).loc main_v4) ↦{fullShare} V m c main_v4) ∗ (((c.tc : Thread nD τ).loc main_v5) ↦{fullShare} V m c main_v5) ∗ (((c.tc : Thread nD τ).loc main_v6) ↦{fullShare} V m c main_v6) ∗ (((c.tc : Thread nD τ).loc main_v7) ↦{fullShare} V m c main_v7) ∗ (((c.tc : Thread nD τ).loc main_v8) ↦{fullShare} V m c main_v8) ∗ (((c.tc : Thread nD τ).loc main_v9) ↦{fullShare} V m c main_v9) ∗ (((c.tc : Thread nD τ).loc main_v10) ↦{fullShare} V m c main_v10) ∗ (((c.tc : Thread nD τ).loc main_v11) ↦{fullShare} V m c main_v11) ∗ (((c.tc : Thread nD τ).loc main_v12_0) ↦{fullShare} V m c main_v12_0) ∗ (((c.tc : Thread nD τ).loc main_v12_1) ↦{fullShare} V m c main_v12_1)) := by
  unfold Pipeline.arrBufs
  exact bigSep_eq_bigSepL_of_eq [main_arg0, main_arg1, main_arg2, main_v0, main_v1, main_v2, main_v3, main_v4, main_v5, main_v6, main_v7, main_v8, main_v9, main_v10, main_v11, main_v12_0, main_v12_1] (by decide) (by decide) _

/-- The windows' arrays at their shares, one by one. -/
theorem arrays0_eq (c : Dev nD) :
    ((dats m 0 c).arrays (fun w => (dats m 0 c).arrAt w 0) : sProp 𝕄)
      = iprop((((c.tc : Thread nD τ).loc main_arg0) ↦{fullShare} V m c main_arg0) ∗ (((c.tc : Thread nD τ).loc main_arg1) ↦{fullShare.left} V m c main_arg1) ∗ (((c.tc : Thread nD τ).loc main_arg1) ↦{fullShare.right} V m c main_arg1) ∗ (((c.tc : Thread nD τ).loc main_arg2) ↦{fullShare} V m c main_arg2) ∗ (((c.tc : Thread nD τ).loc main_v0) ↦{fullShare} V m c main_v0) ∗ (((c.tc : Thread nD τ).loc main_v1) ↦{fullShare} V m c main_v1) ∗ (((c.tc : Thread nD τ).loc main_v2) ↦{fullShare} V m c main_v2) ∗ (((c.tc : Thread nD τ).loc main_v3) ↦{fullShare} V m c main_v3) ∗ (((c.tc : Thread nD τ).loc main_v4) ↦{fullShare} V m c main_v4) ∗ (((c.tc : Thread nD τ).loc main_v5) ↦{fullShare} V m c main_v5) ∗ (((c.tc : Thread nD τ).loc main_v6) ↦{fullShare} V m c main_v6) ∗ (((c.tc : Thread nD τ).loc main_v7) ↦{fullShare} V m c main_v7) ∗ (((c.tc : Thread nD τ).loc main_v8) ↦{fullShare} V m c main_v8) ∗ (((c.tc : Thread nD τ).loc main_v9) ↦{fullShare} V m c main_v9) ∗ (((c.tc : Thread nD τ).loc main_v10) ↦{fullShare} V m c main_v10) ∗ (((c.tc : Thread nD τ).loc main_v11) ↦{fullShare} V m c main_v11) ∗ (((c.tc : Thread nD τ).loc main_v12_0) ↦{fullShare} V m c main_v12_0) ∗ (((c.tc : Thread nD τ).loc main_v12_1) ↦{fullShare} V m c main_v12_1)) := by
  unfold Pipeline.Dat.arrays
  rw [bigSep_W0]
  simp only [share_0, share_1, share_2, share_3, share_4, share_5, share_6, share_7, share_8, share_9, share_10, share_11, share_12, share_13, share_14, share_15, share_16, share_17, View.set_whole]
  rfl

/-- The seventeen buffers behind the eighteen windows' arrays, each whole at its entry contents, are the windows'
    arrays at their shares: the previous hidden memory split in two halves, every other buffer as it is. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  have e1 : ((((c.tc : Thread nD τ).loc main_arg1) ↦{fullShare} V m c main_arg1) : sProp 𝕄)
      = iprop((((c.tc : Thread nD τ).loc main_arg1) ↦{fullShare.left} V m c main_arg1) ∗ (((c.tc : Thread nD τ).loc main_arg1) ↦{fullShare.right} V m c main_arg1)) :=
    BI.Entails.antisymm (pointsTo_share (PosShare.mem_left_op_right fullShare)).1 (pointsTo_share (PosShare.mem_left_op_right fullShare)).2
  rw [arrBufs0_eq, arrays0_eq, e1]
  iintro ⟨A0, ⟨A1l, A1r⟩, A2, W0, W1, W2, W3, W4, W5, W6, W7, W8, W9, W10, W11, O0, O1⟩
  isplitl [A0]; · iexact A0
  isplitl [A1l]; · iexact A1l
  isplitl [A1r]; · iexact A1r
  isplitl [A2]; · iexact A2
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [O0]; · iexact O0
  iexact O1

set_option backward.isDefEq.respectTransparency.types false in
/-- From any memory with zero counters every execution of the program terminates without a fault; at the end every
    array of the pipeline holds its entry contents overwritten by the blocks written back, and every other unscoped
    buffer what the region found. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      · iexact H)
    (hin := fun c => (show iprop(emp ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c from by
      iintro ⟨-, H⟩
      iexact H))
    (hout := fun c => (show Pipeline.scopedRest (Ix := Unit) (Name := ℕ) (U := UR sig nD τ) (Lvl := ℕ) (Val := Elt F) spec0 c
        ⊢ iprop(emp ∗ Pipeline.scopedRest (Ix := Unit) (Name := ℕ) (U := UR sig nD τ) (Lvl := ℕ) (Val := Elt F) spec0 c) from by
      iintro H
      isplitr
      · iempintro
      · iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- In a final state of the run the fifteen argument arrays are as launched: three are input windows' arrays, never
    written back; twelve are read by the host's roundings only and bypass the region. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩

/-- The program runs and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept m r h c) (run_main m ρ)

end Cert.KernelIdeal.Hand

end
-- ==== Proof.KI.Final.lean ====
/-
  The kernel's two result arrays after the run, at the extended reals, and the run re-posted with them.

  The body stores the new hidden state over the left half of the second result's block and the new cell state over its
  right half; the two stores tile the block, so the block is the two states side by side. What point `t` writes back into
  either result is then block `t` of the cell's mathematics of the argument arrays, the sixteen row blocks of a result
  cover it, and so each result ends holding that function of the arguments.
-/
import proofs.«147033_j23012434772050_2_alg».proof.Proof.KI.Arrays
import proofs.«147033_j23012434772050_2_alg».proof.Proof.KI.Run

set_option maxRecDepth 16384

noncomputable section

open scoped BigOperators

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.LstmSpec

variable (m : (ℓ : Loc nD τ sig) → Buf (Elt Ideal) ℓ) (ρ : Dev nD → PrngReg)

/-- Two 1024-column blocks side by side. -/
def stateB (h c : Vec Ideal S256x1024 .f32) : Vec Ideal S256x2048 .f32 :=
  fun y => if hlt : (y 1).val < 1024 then h (ix2 (y 0) ⟨(y 1).val, hlt⟩)
    else c (ix2 (y 0) ⟨(y 1).val - 1024, by have h2 : (y 1).val < 2048 := (y 1).isLt; omega⟩)

/-- A store over the right half and a store over the left half leave the two payloads side by side. -/
theorem state_canon (h c : Vec Ideal S256x1024 .f32) :
    View.canon [(⟨rR, c⟩ : View.Piece (Elt Ideal) S256x2048 .f32), ⟨rL, h⟩] = stateB h c := by
  funext y
  refine View.canon_apply_of_pieces (stateB h c) _ (fun pc hpc x => ?_) y (cover17 _ _ y)
  simp only [List.mem_cons, List.mem_singleton, List.not_mem_nil, or_false] at hpc
  rcases hpc with rfl | rfl
  · obtain ⟨p, q, rfl⟩ : ∃ (p : Fin 256) (q : Fin 1024), x = ix2 p q := ⟨x 0, x 1, eq_ix2 x⟩
    have h1 : ((rR.emb (ix2 p q) : S256x2048.Idx) 1).val = 1024 + 1 * q.val := rfl
    have h0 : ((rR.emb (ix2 p q) : S256x2048.Idx) 0).val = 0 + 1 * p.val := rfl
    unfold stateB
    rw [dif_neg (by rw [h1]; omega)]
    refine congrArg c (funext fun a => Fin.ext ?_)
    match a with
    | ⟨0, _⟩ => show p.val = ((rR.emb (ix2 p q) : S256x2048.Idx) 0).val; rw [h0]; omega
    | ⟨1, _⟩ => show q.val = ((rR.emb (ix2 p q) : S256x2048.Idx) 1).val - 1024; rw [h1]; omega
  · obtain ⟨p, q, rfl⟩ : ∃ (p : Fin 256) (q : Fin 1024), x = ix2 p q := ⟨x 0, x 1, eq_ix2 x⟩
    have h1 : ((rL.emb (ix2 p q) : S256x2048.Idx) 1).val = 0 + 1 * q.val := rfl
    have h0 : ((rL.emb (ix2 p q) : S256x2048.Idx) 0).val = 0 + 1 * p.val := rfl
    have hq := q.isLt
    unfold stateB
    rw [dif_pos (by rw [h1]; omega)]
    refine congrArg h (funext fun a => Fin.ext ?_)
    match a with
    | ⟨0, _⟩ => show p.val = ((rL.emb (ix2 p q) : S256x2048.Idx) 0).val; rw [h0]; omega
    | ⟨1, _⟩ => show q.val = ((rL.emb (ix2 p q) : S256x2048.Idx) 1).val; rw [h1]; omega

/-- The left half of a row of two blocks side by side. -/
theorem stateB_lo (h c : Vec Ideal S256x1024 .f32) (p : Fin 256) (q : Fin 1024) : stateB h c (ix2 p (lo q)) = h (ix2 p q) := by
  unfold stateB
  exact dif_pos (show ((ix2 p (lo q) : S256x2048.Idx) 1).val < 1024 from q.isLt)

/-- The right half of a row of two blocks side by side. -/
theorem stateB_hi (h c : Vec Ideal S256x1024 .f32) (p : Fin 256) (q : Fin 1024) : stateB h c (ix2 p (hi q)) = c (ix2 p q) := by
  unfold stateB
  refine (dif_neg (show ¬ ((ix2 p (hi q) : S256x2048.Idx) 1).val < 1024 from by show ¬ (1024 + q.val < 1024); omega)).trans ?_
  refine congrArg c (funext fun a => Fin.ext ?_)
  match a with
  | ⟨0, _⟩ => rfl
  | ⟨1, _⟩ => show 1024 + q.val - 1024 = q.val; omega

/-- The left half of a row of the second result is the new hidden state. -/
theorem outS_lo (x : Mat 4096 512) (hm1 hm2 : Mat 4096 2048) (Wi : Mat 512 1024) (Ui Vi : Mat 1024 1024) (Wf : Mat 512 1024) (Uf Vf : Mat 1024 1024)
    (Wo : Mat 512 1024) (Uo Vo : Mat 1024 1024) (Wc : Mat 512 1024) (Uc Vc : Mat 1024 1024) (b : Fin 4096) (q : Fin 1024) :
    outS x hm1 hm2 Wi Ui Vi Wf Uf Vf Wo Uo Vo Wc Uc Vc (ix2 b (lo q)) = Cert.LstmSpec.hidden x hm1 hm2 Wi Ui Vi Wf Uf Vf Wo Uo Vo Wc Uc Vc b q := by
  unfold outS
  exact dif_pos (show ((ix2 b (lo q) : (⟨2, ![4096, 2048]⟩ : Shape).Idx) 1).val < 1024 from q.isLt)

/-- The right half of a row of the second result is the new cell state. -/
theorem outS_hi (x : Mat 4096 512) (hm1 hm2 : Mat 4096 2048) (Wi : Mat 512 1024) (Ui Vi : Mat 1024 1024) (Wf : Mat 512 1024) (Uf Vf : Mat 1024 1024)
    (Wo : Mat 512 1024) (Uo Vo : Mat 1024 1024) (Wc : Mat 512 1024) (Uc Vc : Mat 1024 1024) (b : Fin 4096) (q : Fin 1024) :
    outS x hm1 hm2 Wi Ui Vi Wf Uf Vf Wo Uo Vo Wc Uc Vc (ix2 b (hi q)) = cell x hm1 hm2 Wi Ui Vi Wf Uf Vf Wc Uc Vc b q := by
  unfold outS
  refine (dif_neg (show ¬ ((ix2 b (hi q) : (⟨2, ![4096, 2048]⟩ : Shape).Idx) 1).val < 1024 from by show ¬ (1024 + q.val < 1024); omega)).trans ?_
  refine congrArg (cell x hm1 hm2 Wi Ui Vi Wf Uf Vf Wc Uc Vc b) (Fin.ext ?_)
  show 1024 + q.val - 1024 = q.val; omega

/-! ## The first result -/

/-- What point `t` writes back into the first result is block `t` of the new hidden state of the arguments. -/
theorem flushed16_eq (c : Dev nD) (t : Fin cfg0.N) :
    (dats m 0 c).flushed 16 t = ((cfg0.win 16).blk t).view.read (Elt Ideal) (outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  show (cfg0.win 16).cut (grid0.coords t) ((dats m 0 c).after 16 t) = _
  rw [after16]
  unfold out16
  rw [View.canon_unit_zero hz]
  funext j
  obtain ⟨p, q, rfl⟩ : ∃ (p : Fin 256) (q : Fin 1024), j = ix2 p q := ⟨j 0, j 1, eq_ix2 j⟩
  obtain ⟨-, -, -, -, -, -, -, -, e0, e1, -⟩ := idx_facts t
  have he : ((cfg0.win 16).blk t).view.emb (ix2 p q) = ix2 (row t p) q := funext fun a => Fin.ext (by
    match a with
    | ⟨0, _⟩ => show win0_16.index t (0 : Fin 2) * 256 + 1 * p.val = 256 * t.val + p.val; omega
    | ⟨1, _⟩ => show win0_16.index t (1 : Fin 2) * 1024 + 1 * q.val = q.val; omega)
  show hiddenOut (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p q) = outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (((cfg0.win 16).blk t).view.emb (ix2 p q))
  rw [he, hiddenOut_blocks]
  rfl

theorem mem_blk16 (t : Fin cfg0.N) (i : S4096x1024.Idx) :
    i ∈ ((cfg0.win 16).blk t).view.set ↔ ∀ a : Fin 2, win0_16.index t a * S256x1024.size a ≤ (i a).val ∧ (i a).val < win0_16.index t a * S256x1024.size a + S256x1024.size a := by
  show i ∈ ((View.whole main_v12_0).slice (win0_16.rect t)).set ↔ _
  rw [View.set_slice_whole, Rect.mem_set_unit]
  exact Iff.rfl

/-- Every index of the first result is in the block of the point its row falls in. -/
theorem covered16 (i : S4096x1024.Idx) :
    ∃ t : Fin cfg0.N, (cfg0.win 16).flush t = true ∧ i ∈ ((cfg0.win 16).blk t).view.set := by
  have hi0 : (i 0).val < 4096 := (i 0).isLt
  have hi1 : (i 1).val < 1024 := (i 1).isLt
  have hN : cfg0.N = 16 := N_0
  have ht : (i 0).val / 256 < cfg0.N := by omega
  obtain ⟨-, -, -, -, -, -, -, -, e0, e1, -⟩ := idx_facts ⟨(i 0).val / 256, ht⟩
  refine ⟨⟨(i 0).val / 256, ht⟩, flush0_16 _, ?_⟩
  rw [mem_blk16]
  intro a
  match a with
  | ⟨0, _⟩ =>
    show win0_16.index ⟨(i 0).val / 256, ht⟩ (0 : Fin 2) * 256 ≤ (i 0).val ∧ (i 0).val < win0_16.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_16.index ⟨(i 0).val / 256, ht⟩ (1 : Fin 2) * 1024 ≤ (i 1).val ∧ (i 1).val < win0_16.index ⟨(i 0).val / 256, ht⟩ (1 : Fin 2) * 1024 + 1024
    rw [e1]; omega

/-- The first result after the run. -/
theorem final16 (c : Dev nD) : (dats m 0 c).arrAt 16 cfg0.N = outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 16 _ (fun t _ => flushed16_eq m c t) covered16

/-! ## The second result -/

/-- What point `t` writes back into the second result is block `t` of the new hidden and cell states side by side. -/
theorem flushed17_eq (c : Dev nD) (t : Fin cfg0.N) :
    (dats m 0 c).flushed 17 t = ((cfg0.win 17).blk t).view.read (Elt Ideal) (outS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  show (cfg0.win 17).cut (grid0.coords t) ((dats m 0 c).after 17 t) = _
  rw [after17]
  unfold out17
  rw [state_canon]
  funext j
  obtain ⟨p, cc, rfl⟩ : ∃ (p : Fin 256) (cc : Fin 2048), j = ix2 p cc := ⟨j 0, j 1, eq_ix2 j⟩
  obtain ⟨-, -, -, -, -, -, -, -, -, -, e0, e1⟩ := idx_facts t
  have he : ((cfg0.win 17).blk t).view.emb (ix2 p cc) = ix2 (row t p) cc := funext fun a => Fin.ext (by
    match a with
    | ⟨0, _⟩ => show win0_17.index t (0 : Fin 2) * 256 + 1 * p.val = 256 * t.val + p.val; omega
    | ⟨1, _⟩ => show win0_17.index t (1 : Fin 2) * 2048 + 1 * cc.val = cc.val; omega)
  show stateB (hiddenOut (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (cellOut (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (ix2 p cc)
      = outS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (((cfg0.win 17).blk t).view.emb (ix2 p cc))
  rw [he]
  by_cases h : cc.val < 1024
  · obtain ⟨q, rfl⟩ : ∃ q : Fin 1024, cc = lo q := ⟨⟨cc.val, h⟩, Fin.ext rfl⟩
    rw [stateB_lo, outS_lo]
    exact hiddenOut_blocks m c t p q
  · have h2 : cc.val - 1024 < 1024 := by have := cc.isLt; omega
    obtain ⟨q, rfl⟩ : ∃ q : Fin 1024, cc = hi q := ⟨⟨cc.val - 1024, h2⟩, Fin.ext (by show cc.val = 1024 + (cc.val - 1024); omega)⟩
    rw [stateB_hi, outS_hi]
    exact cellOut_blocks m c t p q

theorem mem_blk17 (t : Fin cfg0.N) (i : S4096x2048.Idx) :
    i ∈ ((cfg0.win 17).blk t).view.set ↔ ∀ a : Fin 2, win0_17.index t a * S256x2048.size a ≤ (i a).val ∧ (i a).val < win0_17.index t a * S256x2048.size a + S256x2048.size a := by
  show i ∈ ((View.whole main_v12_1).slice (win0_17.rect t)).set ↔ _
  rw [View.set_slice_whole, Rect.mem_set_unit]
  exact Iff.rfl

/-- Every index of the second result is in the block of the point its row falls in. -/
theorem covered17 (i : S4096x2048.Idx) :
    ∃ t : Fin cfg0.N, (cfg0.win 17).flush t = true ∧ i ∈ ((cfg0.win 17).blk t).view.set := by
  have hi0 : (i 0).val < 4096 := (i 0).isLt
  have hi1 : (i 1).val < 2048 := (i 1).isLt
  have hN : cfg0.N = 16 := N_0
  have ht : (i 0).val / 256 < cfg0.N := by omega
  obtain ⟨-, -, -, -, -, -, -, -, -, -, e0, e1⟩ := idx_facts ⟨(i 0).val / 256, ht⟩
  refine ⟨⟨(i 0).val / 256, ht⟩, flush0_17 _, ?_⟩
  rw [mem_blk17]
  intro a
  match a with
  | ⟨0, _⟩ =>
    show win0_17.index ⟨(i 0).val / 256, ht⟩ (0 : Fin 2) * 256 ≤ (i 0).val ∧ (i 0).val < win0_17.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_17.index ⟨(i 0).val / 256, ht⟩ (1 : Fin 2) * 2048 ≤ (i 1).val ∧ (i 1).val < win0_17.index ⟨(i 0).val / 256, ht⟩ (1 : Fin 2) * 2048 + 2048
    rw [e1]; omega

/-- The second result after the run. -/
theorem final17 (c : Dev nD) : (dats m 0 c).arrAt 17 cfg0.N = outS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 17 _ (fun t _ => flushed17_eq m c t) covered17

/-! ## The run, read -/

/-- The run re-posted: each result at the cell's mathematics of the argument arrays, the arguments unchanged. -/
theorem run : θ_run defs (onTc (τ := τ) (main (F := Ideal))) ⟨m, fun _ => 0, ρ⟩ fun r => ∀ c : Dev nD,
      r.2.mem ((c : Thread nD τ).loc main_v12_0) = outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v12_1) = outS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 16).trans (final16 m c), ((h c).1 17).trans (final17 m c), kept m r h c⟩)
    (run_main m ρ)

end Cert.KernelIdeal.Hand

end
-- ==== Proof.Concat.lean ====
/-
  A concatenation of four equal-width blocks of columns, read at an index: column `1024·g + j` of the joined matrix
  is column `j` of block `g`.
-/
import Idealize.ShloMosaic.Lib.Pipeline.Value
import Idealize.ShloMosaic.Lib.ValueIdx

noncomputable section

namespace Cert.LstmSpec

open Idealize.ShloMosaic Idealize.ShloMosaic.ValueIdx

variable {α : Type}

/-- Column `pre + j` of four `R × 1024` blocks joined along the columns is column `j` of the block that starts at
    column `pre`. -/
theorem concat4_apply (R : Nat) (y0 y1 y2 y3 : (⟨2, ![R, 1024]⟩ : Shape).Idx → α)
    (h : Shape.Concatenates [(⟨2, ![R, 1024]⟩ : Shape), ⟨2, ![R, 1024]⟩, ⟨2, ![R, 1024]⟩, ⟨2, ![R, 1024]⟩] ⟨2, ![R, 4096]⟩ 1)
    (r : Fin R) (j : Fin 1024) (c : Fin 4096) (g : Nat) (hg : g < 4) (hc : c.val = 1024 * g + j.val) :
    concatenate (⟨2, ![R, 4096]⟩ : Shape) 1 [⟨⟨2, ![R, 1024]⟩, y0⟩, ⟨⟨2, ![R, 1024]⟩, y1⟩, ⟨⟨2, ![R, 1024]⟩, y2⟩, ⟨⟨2, ![R, 1024]⟩, y3⟩] h (ix2 r c)
      = ([y0, y1, y2, y3][g]'(by simpa using hg)) (ix2 r j) := by
  have hi : ∀ b : Fin (⟨2, ![R, 1024]⟩ : Shape).rank, b.cast (rfl : (⟨2, ![R, 1024]⟩ : Shape).rank = (⟨2, ![R, 4096]⟩ : Shape).rank) ≠ (1 : Fin 2) →
      ((ix2 r j : (⟨2, ![R, 1024]⟩ : Shape).Idx) b).val = ((ix2 r c : (⟨2, ![R, 4096]⟩ : Shape).Idx) (b.cast rfl)).val := fun b hb => by
    match b with
    | ⟨0, _⟩ => rfl
    | ⟨1, _⟩ => exact absurd rfl hb
  match g, hg with
  | 0, _ =>
    exact concatenate_apply_piece 1 [⟨⟨2, ![R, 1024]⟩, y0⟩, ⟨⟨2, ![R, 1024]⟩, y1⟩, ⟨⟨2, ![R, 1024]⟩, y2⟩, ⟨⟨2, ![R, 1024]⟩, y3⟩] h (ix2 r c) 0 (by show (0 : Nat) < 4; omega) _ y0 rfl rfl 0 rfl (ix2 r j) hi (by show 0 + j.val = c.val; omega)
  | 1, _ =>
    exact concatenate_apply_piece 1 [⟨⟨2, ![R, 1024]⟩, y0⟩, ⟨⟨2, ![R, 1024]⟩, y1⟩, ⟨⟨2, ![R, 1024]⟩, y2⟩, ⟨⟨2, ![R, 1024]⟩, y3⟩] h (ix2 r c) 1 (by show (1 : Nat) < 4; omega) _ y1 rfl rfl 1024 rfl (ix2 r j) hi (by show 1024 + j.val = c.val; omega)
  | 2, _ =>
    exact concatenate_apply_piece 1 [⟨⟨2, ![R, 1024]⟩, y0⟩, ⟨⟨2, ![R, 1024]⟩, y1⟩, ⟨⟨2, ![R, 1024]⟩, y2⟩, ⟨⟨2, ![R, 1024]⟩, y3⟩] h (ix2 r c) 2 (by show (2 : Nat) < 4; omega) _ y2 rfl rfl 2048 rfl (ix2 r j) hi (by show 2048 + j.val = c.val; omega)
  | 3, _ =>
    exact concatenate_apply_piece 1 [⟨⟨2, ![R, 1024]⟩, y0⟩, ⟨⟨2, ![R, 1024]⟩, y1⟩, ⟨⟨2, ![R, 1024]⟩, y2⟩, ⟨⟨2, ![R, 1024]⟩, y3⟩] h (ix2 r c) 3 (by show (3 : Nat) < 4; omega) _ y3 rfl rfl 3072 rfl (ix2 r j) hi (by show 3072 + j.val = c.val; omega)

end Cert.LstmSpec

end
-- ==== Proof.RefSide.lean ====
/-
  The reference computes the cell's mathematics.

  The reference joins the four gates' weights along the columns, forms one 4096-column product per operand, adds the
  three, and cuts the sum into the four gates: column `1024·g + j` of a product with joined weights is column `j` of the
  product with gate `g`'s weights, so each cut is that gate's pre-activation. It spells the logistic function as
  `1 / (1 + e^(-z))`, which is its definition on the extended reals, and joins the new hidden and cell states along the
  columns for its second result.
-/
import proofs.«147033_j23012434772050_2_alg».proof.Proof.Gen.ReferenceIdeal.Read
import proofs.«147033_j23012434772050_2_alg».proof.Proof.Spec
import proofs.«147033_j23012434772050_2_alg».proof.Proof.Concat

noncomputable section

open scoped BigOperators

namespace Cert.ReferenceIdeal.RefSpec

open Cert.ReferenceIdeal Cert.ReferenceIdeal.Gen Cert.ReferenceIdeal.Read Cert.LstmSpec
open Idealize.ShloMosaic Idealize.ShloMosaic.TcCoe Idealize.SL.Sem Idealize.ShloMosaic.ValueIdx

variable (x0 : (⟨S4096x512, .f32⟩ : BufTy).Contents (Elt Ideal)) (x1 x2 : (⟨S4096x2048, .f32⟩ : BufTy).Contents (Elt Ideal)) (x3 : (⟨S512x1024, .f32⟩ : BufTy).Contents (Elt Ideal)) (x4 x5 : (⟨S1024x1024, .f32⟩ : BufTy).Contents (Elt Ideal)) (x6 : (⟨S512x1024, .f32⟩ : BufTy).Contents (Elt Ideal)) (x7 x8 : (⟨S1024x1024, .f32⟩ : BufTy).Contents (Elt Ideal)) (x9 : (⟨S512x1024, .f32⟩ : BufTy).Contents (Elt Ideal)) (x10 x11 : (⟨S1024x1024, .f32⟩ : BufTy).Contents (Elt Ideal)) (x12 : (⟨S512x1024, .f32⟩ : BufTy).Contents (Elt Ideal)) (x13 x14 : (⟨S1024x1024, .f32⟩ : BufTy).Contents (Elt Ideal))

/-- Column `1024·g + j` of the sum of the three products with joined weights is gate `g`'s pre-activation at column `j`. -/
theorem gates_apply (b : Fin 4096) (j : Fin 1024) (c : Fin 4096) (g : Nat) (hg : g < 4) (hc : c.val = 1024 * g + j.val) :
    val_main_v10 (F := Ideal) x0 x1 x2 x3 x4 x5 x6 x7 x8 x9 x10 x11 x12 x13 x14 (ix2 b c)
      = gate x0 x1 x2 ([x3, x6, x9, x12][g]'(by simpa using hg)) ([x4, x7, x10, x13][g]'(by simpa using hg)) ([x5, x8, x11, x14][g]'(by simpa using hg)) b j := by
  rw [val_main_v10_apply, val_main_v8_apply, val_main_v6_apply, val_main_v7_apply, val_main_v9_apply]
  unfold gate
  refine congrArg₂ (· + ·) (congrArg₂ (· + ·) (Finset.sum_congr rfl fun k _ => ?_) (Finset.sum_congr rfl fun k _ => ?_)) (Finset.sum_congr rfl fun k _ => ?_)
  · have el : lidx_main_v6 (ix2 b c) k = ix2 b k := funext fun a => Fin.ext (by match a with | ⟨0, _⟩ => rfl | ⟨1, _⟩ => rfl)
    have er : ridx_main_v6 (ix2 b c) k = ix2 k c := funext fun a => Fin.ext (by match a with | ⟨0, _⟩ => rfl | ⟨1, _⟩ => rfl)
    rw [el, er]
    unfold val_main_v3
    rw [concat4_apply 512 x3 x6 x9 x12 _ k j c g hg hc]
  · have el : lidx_main_v7 (ix2 b c) k = ix2 b k := funext fun a => Fin.ext (by match a with | ⟨0, _⟩ => rfl | ⟨1, _⟩ => rfl)
    have er : ridx_main_v7 (ix2 b c) k = ix2 k c := funext fun a => Fin.ext (by match a with | ⟨0, _⟩ => rfl | ⟨1, _⟩ => rfl)
    rw [el, er, val_main_v0_apply]
    have e0 : idx_main_v0 (ix2 b k) = ix2 b (lo k) := funext fun a => Fin.ext (by match a with | ⟨0, _⟩ => rfl | ⟨1, _⟩ => rfl)
    rw [e0]
    unfold val_main_v4
    rw [concat4_apply 1024 x4 x7 x10 x13 _ k j c g hg hc]
  · have el : lidx_main_v9 (ix2 b c) k = ix2 b k := funext fun a => Fin.ext (by match a with | ⟨0, _⟩ => rfl | ⟨1, _⟩ => rfl)
    have er : ridx_main_v9 (ix2 b c) k = ix2 k c := funext fun a => Fin.ext (by match a with | ⟨0, _⟩ => rfl | ⟨1, _⟩ => rfl)
    rw [el, er, val_main_v2_apply]
    have e0 : idx_main_v2 (ix2 b k) = ix2 b (lo k) := funext fun a => Fin.ext (by match a with | ⟨0, _⟩ => rfl | ⟨1, _⟩ => rfl)
    rw [e0]
    unfold val_main_v5
    rw [concat4_apply 1024 x5 x8 x11 x14 _ k j c g hg hc]

/-- The reference's new cell state, before it is joined to the hidden state. -/
theorem cell_apply (b : Fin 4096) (j : Fin 1024) :
    val_main_v36 (F := Ideal) x0 x1 x2 x3 x4 x5 x6 x7 x8 x9 x10 x11 x12 x13 x14 (ix2 b j) = cell x0 x1 x2 x3 x4 x5 x6 x7 x8 x12 x13 x14 b j := by
  have e11 : idx_main_v11 (ix2 b j) = ix2 b (⟨j.val, by have := j.isLt; omega⟩ : Fin 4096) := funext fun a => Fin.ext (by match a with | ⟨0, _⟩ => rfl | ⟨1, _⟩ => rfl)
  have e18 : idx_main_v18 (ix2 b j) = ix2 b (⟨1024 + j.val, by have := j.isLt; omega⟩ : Fin 4096) := funext fun a => Fin.ext (by match a with | ⟨0, _⟩ => rfl | ⟨1, _⟩ => rfl)
  have e32 : idx_main_v32 (ix2 b j) = ix2 b (⟨3072 + j.val, by have := j.isLt; omega⟩ : Fin 4096) := funext fun a => Fin.ext (by match a with | ⟨0, _⟩ => rfl | ⟨1, _⟩ => rfl)
  have e1 : idx_main_v1 (ix2 b j) = ix2 b (hi j) := funext fun a => Fin.ext (by match a with | ⟨0, _⟩ => rfl | ⟨1, _⟩ => rfl)
  simp only [val_main_v36_apply, val_main_v34_apply, val_main_v35_apply, val_main_v24_apply, val_main_v23_apply, val_main_cst_2_apply,
    val_main_v22_apply, val_main_v21_apply, val_main_cst_1_apply, val_main_v20_apply, val_main_v19_apply, val_main_v18_apply,
    val_main_v17_apply, val_main_v16_apply, val_main_cst_0_apply, val_main_v15_apply, val_main_v14_apply, val_main_cst_apply,
    val_main_v13_apply, val_main_v12_apply, val_main_v11_apply, val_main_v33_apply, val_main_v32_apply, val_main_v1_apply]
  have g0 := gates_apply x0 x1 x2 x3 x4 x5 x6 x7 x8 x9 x10 x11 x12 x13 x14 b j (⟨j.val, by have := j.isLt; omega⟩ : Fin 4096) 0 (by decide) (by show j.val = 1024 * 0 + j.val; omega)
  have g1 := gates_apply x0 x1 x2 x3 x4 x5 x6 x7 x8 x9 x10 x11 x12 x13 x14 b j (⟨1024 + j.val, by have := j.isLt; omega⟩ : Fin 4096) 1 (by decide) (by show 1024 + j.val = 1024 * 1 + j.val; omega)
  have g3 := gates_apply x0 x1 x2 x3 x4 x5 x6 x7 x8 x9 x10 x11 x12 x13 x14 b j (⟨3072 + j.val, by have := j.isLt; omega⟩ : Fin 4096) 3 (by decide) (by show 3072 + j.val = 1024 * 3 + j.val; omega)
  rw [e11, e18, e32, e1, g0, g1, g3]
  simp only [Ideal.ofBits_def, Ideal.addf_def, Ideal.mulf_def, Ideal.hostDivf_def, Ideal.hostNegf_def, Ideal.negf_def,
    Ideal.hostUnary_exp_def, Ideal.hostUnary_tanh_def, one_word]
  rfl

/-- The reference's first result is the new hidden state. -/
theorem hidden_apply (b : Fin 4096) (j : Fin 1024) :
    val_main_v38 (F := Ideal) x0 x1 x2 x3 x4 x5 x6 x7 x8 x9 x10 x11 x12 x13 x14 (ix2 b j) = hidden x0 x1 x2 x3 x4 x5 x6 x7 x8 x9 x10 x11 x12 x13 x14 b j := by
  have e25 : idx_main_v25 (ix2 b j) = ix2 b (⟨2048 + j.val, by have := j.isLt; omega⟩ : Fin 4096) := funext fun a => Fin.ext (by match a with | ⟨0, _⟩ => rfl | ⟨1, _⟩ => rfl)
  simp only [val_main_v38_apply, val_main_v37_apply, val_main_v31_apply, val_main_v30_apply, val_main_cst_4_apply,
    val_main_v29_apply, val_main_v28_apply, val_main_cst_3_apply, val_main_v27_apply, val_main_v26_apply, val_main_v25_apply]
  have g2 := gates_apply x0 x1 x2 x3 x4 x5 x6 x7 x8 x9 x10 x11 x12 x13 x14 b j (⟨2048 + j.val, by have := j.isLt; omega⟩ : Fin 4096) 2 (by decide) (by show 2048 + j.val = 1024 * 2 + j.val; omega)
  rw [e25, cell_apply, g2]
  simp only [Ideal.ofBits_def, Ideal.addf_def, Ideal.mulf_def, Ideal.hostDivf_def, Ideal.hostNegf_def, Ideal.negf_def,
    Ideal.hostUnary_exp_def, Ideal.hostUnary_tanh_def, one_word]
  rfl

/-- The reference's first result, as a whole array. -/
theorem res0_eq : val_main_v38 (F := Ideal) x0 x1 x2 x3 x4 x5 x6 x7 x8 x9 x10 x11 x12 x13 x14 = outH x0 x1 x2 x3 x4 x5 x6 x7 x8 x9 x10 x11 x12 x13 x14 := by
  funext i
  obtain ⟨b, j, rfl⟩ : ∃ (b : Fin 4096) (j : Fin 1024), i = ix2 b j := ⟨i 0, i 1, eq_ix2 i⟩
  exact hidden_apply x0 x1 x2 x3 x4 x5 x6 x7 x8 x9 x10 x11 x12 x13 x14 b j

/-- The reference's second result, as a whole array: the new hidden state in the left 1024 columns, the new cell state
    in the right 1024. -/
theorem res1_eq : val_main_v39 (F := Ideal) x0 x1 x2 x3 x4 x5 x6 x7 x8 x9 x10 x11 x12 x13 x14 = outS x0 x1 x2 x3 x4 x5 x6 x7 x8 x9 x10 x11 x12 x13 x14 := by
  funext i
  obtain ⟨b, c, rfl⟩ : ∃ (b : Fin 4096) (c : Fin 2048), i = ix2 b c := ⟨i 0, i 1, eq_ix2 i⟩
  unfold val_main_v39 outS
  by_cases h : c.val < 1024
  · rw [dif_pos (show ((ix2 b c : S4096x2048.Idx) 1).val < 1024 from h)]
    refine (concatenate_pair_apply_left (t := S4096x2048) (s₁ := S4096x1024) (s₂ := S4096x1024) (1 : Fin 2) _ _ concatenates_S4096x1024_S4096x1024_S4096x2048_d1 (ix2 b c) rfl
      (ix2 b (⟨c.val, h⟩ : Fin 1024) : S4096x1024.Idx) (fun a => by match a with | ⟨0, _⟩ => rfl | ⟨1, _⟩ => rfl)).trans ?_
    exact hidden_apply x0 x1 x2 x3 x4 x5 x6 x7 x8 x9 x10 x11 x12 x13 x14 b ⟨c.val, h⟩
  · rw [dif_neg (show ¬ ((ix2 b c : S4096x2048.Idx) 1).val < 1024 from h)]
    have hc : c.val - 1024 < 1024 := by have := c.isLt; omega
    refine (concatenate_pair_apply_right (t := S4096x2048) (s₁ := S4096x1024) (s₂ := S4096x1024) (1 : Fin 2) _ _ concatenates_S4096x1024_S4096x1024_S4096x2048_d1 (ix2 b c) rfl rfl
      (ix2 b (⟨c.val - 1024, hc⟩ : Fin 1024) : S4096x1024.Idx) (fun a ha => by match a with | ⟨0, _⟩ => rfl | ⟨1, _⟩ => exact absurd rfl ha)
      (by show c.val - 1024 + 1024 = c.val; omega)).trans ?_
    exact cell_apply x0 x1 x2 x3 x4 x5 x6 x7 x8 x9 x10 x11 x12 x13 x14 b ⟨c.val - 1024, hc⟩

end Cert.ReferenceIdeal.RefSpec

end
-- ==== Proof.lean ====
/-
  The certificate of the bilateral LSTM cell kernel against its reference.

  The kernel computes, one 256-row block of the batch at a time, the four gates' pre-activations as twelve products of
  the activations and the two hidden states with the gates' weights, and from them the new cell and hidden states; the
  reference joins the weights of the four gates, forms three wide products and cuts the sum into the gates. On the
  extended reals the rounding of the weights and activations to bf16 is the identity, a contraction sum does not depend on
  how the columns of the weights are grouped, and the logistic function is `1 / (1 + e^(-z))` on both sides, so both
  programs end with the same two arrays: the new hidden state, and the new hidden and cell states side by side. No
  algebraic law beyond this regrouping is used, so the inputs' finiteness is not needed.

  The two kernel programs run to the end and keep their arguments: the pipeline fetches each block before the body
  and writes the two result blocks back after it; the array of the previous hidden memory is read by two windows, each
  holding it at half the full share.
-/
import proofs.«147033_j23012434772050_2_alg».proof.Defs
import proofs.«147033_j23012434772050_2_alg».proof.Proof.Gen.Kernel
import proofs.«147033_j23012434772050_2_alg».proof.Proof.Gen.KernelIdeal
import proofs.«147033_j23012434772050_2_alg».proof.Proof.Gen.ReferenceIdeal
import proofs.«147033_j23012434772050_2_alg».proof.Proof.Gen.Pre_finite_inputs
import proofs.«147033_j23012434772050_2_alg».proof.Proof.K.Run
import proofs.«147033_j23012434772050_2_alg».proof.Proof.KI.Final
import proofs.«147033_j23012434772050_2_alg».proof.Proof.RefSide

noncomputable section

namespace Cert.Proof

open Idealize.ShloMosaic Idealize.ShloMosaic.TcCoe Idealize.SL.Sem Cert.LstmSpec

/-- The kernel as printed runs and keeps its arguments. -/
theorem frame_k : @Cert.frame_Kernel Cert.Kernel.Gen.facts Cert.Pre_finite_inputs.Gen.facts :=
  fun m ρ _ => Cert.Kernel.Hand.frame m ρ

/-- The idealized kernel runs and keeps its arguments. -/
theorem frame_ki : @Cert.frame_KernelIdeal Cert.KernelIdeal.Gen.facts Cert.Pre_finite_inputs.Gen.facts :=
  fun m ρ _ => Cert.KernelIdeal.Hand.frame m ρ

/-- The idealized reference runs and keeps its arguments. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- From memories agreeing on the arguments both idealized programs end with the new hidden state in the first result
    and the new hidden and cell states side by side in the second. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => outH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => outS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.KernelIdeal.Hand.run m ρ, ?_⟩
  refine (θ_run Cert.ReferenceIdeal.defs _ _).mono (fun _ h c => ⟨?_, ?_, (h c).2.2⟩) (Cert.ReferenceIdeal.Value.run (F := Ideal) m' ρ')
  · obtain ⟨a0, a1, a2, a3, a4, a5, a6, a7, a8, a9, a10, a11, a12, a13, a14⟩ := hagree c
    rw [(h c).1, Cert.ReferenceIdeal.Read.val_main_v38_eq, Cert.ReferenceIdeal.RefSpec.res0_eq, a0, a1, a2, a3, a4, a5, a6, a7, a8, a9, a10, a11, a12, a13, a14]
  · obtain ⟨a0, a1, a2, a3, a4, a5, a6, a7, a8, a9, a10, a11, a12, a13, a14⟩ := hagree c
    rw [(h c).2.1, Cert.ReferenceIdeal.Read.val_main_v39_eq, Cert.ReferenceIdeal.RefSpec.res1_eq, a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
